-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.truncf_extf.Statement Cert.KernelIdeal.S5000x128 .f32 .bf16
  ∧ IdealRules.truncf_extf.Statement Cert.KernelIdeal.S128x256 .f32 .bf16
  ∧ IdealRules.truncf_extf.Statement Cert.KernelIdeal.S5000x128 .f32 .bf16
  ∧ IdealRules.truncf_extf.Statement Cert.KernelIdeal.S128x256 .f32 .bf16
  ∧ IdealRules.truncf_extf.Statement Cert.KernelIdeal.S5000x256 .f32 .bf16
  ∧ IdealRules.truncf_extf.Statement Cert.KernelIdeal.S256x256 .f32 .bf16
  ∧ IdealRules.truncf_extf.Statement Cert.KernelIdeal.S5000x256 .f32 .bf16
  ∧ IdealRules.truncf_extf.Statement Cert.KernelIdeal.S256x256 .f32 .bf16
  ∧ IdealRules.truncf_extf.Statement Cert.KernelIdeal.S5000x256 .f32 .bf16
  ∧ IdealRules.truncf_extf.Statement Cert.KernelIdeal.S256x256 .f32 .bf16
  ∧ IdealRules.truncf_extf.Statement Cert.KernelIdeal.S5000x256 .f32 .bf16
  ∧ IdealRules.truncf_extf.Statement Cert.KernelIdeal.S256x256 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x256 : Shape := ⟨2, ![256, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg8 : FVec F S256x256 .f32) (main_arg9 : FVec F S256 .f32) (main_arg10 : FVec F S256x256 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg10
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  main_v48

def fn_part1 {F : FTy → Type} [FloatOps F] (main_arg5 : FVec F S256x256 .f32) (main_arg6 : FVec F S256 .f32) (main_arg7 : FVec F S256x256 .f32) (main_arg8 : FVec F S256x256 .f32) (main_arg9 : FVec F S256 .f32) (main_arg10 : FVec F S256x256 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x600000 32) (main_arg2 : FVec F S128x256 .f32) (main_arg3 : FVec F S256 .f32) (main_arg4 : FVec F S128x256 .f32) (main_arg5 : FVec F S256x256 .f32) (main_arg6 : FVec F S256 .f32) (main_arg7 : FVec F S256x256 .f32) (main_arg8 : FVec F S256x256 .f32) (main_arg9 : FVec F S256 .f32) (main_arg10 : FVec F S256x256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x256 : Shape := ⟨2, ![256, 256]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x256 : Shape := ⟨2, ![1, 256]⟩
abbrev S50000x256 : Shape := ⟨2, ![50000, 256]⟩
abbrev S5000x128 : Shape := ⟨2, ![5000, 128]⟩
abbrev S5000x1 : Shape := ⟨2, ![5000, 1]⟩
abbrev S5000x256 : Shape := ⟨2, ![5000, 256]⟩
abbrev S600000x256 : Shape := ⟨2, ![600000, 256]⟩

abbrev nBuf : Space → Nat
  | .hbm => 73
  | .vmem => 33
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .f32⟩
  | .hbm, ⟨16, _⟩ => ⟨S600000, .f32⟩
  | .hbm, ⟨17, _⟩ => ⟨S_, .f32⟩
  | .hbm, ⟨18, _⟩ => ⟨S50000, .f32⟩
  | .hbm, ⟨19, _⟩ => ⟨S600000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S_, .i32⟩
  | .hbm, ⟨29, _⟩ => ⟨S600000, .i32⟩
  | .hbm, ⟨30, _⟩ => ⟨S600000, .i1⟩
  | .hbm, ⟨31, _⟩ => ⟨S_, .i32⟩
  | .hbm, ⟨32, _⟩ => ⟨S600000, .i32⟩
  | .hbm, ⟨33, _⟩ => ⟨S600000, .i32⟩
  | .hbm, ⟨34, _⟩ => ⟨S600000, .i32⟩
  | .hbm, ⟨35, _⟩ => ⟨S600000x1, .i32⟩
  | .hbm, ⟨36, _⟩ => ⟨S600000x128, .f32⟩
  | .hbm, ⟨37, _⟩ => ⟨S_, .f32⟩
  | .hbm, ⟨38, _⟩ => ⟨S50000x128, .f32⟩
  | .hbm, ⟨39, _⟩ => ⟨S600000x1, .i32⟩
  | .hbm, ⟨40, _⟩ => ⟨S50000x128, .f32⟩
  | .hbm, ⟨41, _⟩ => ⟨S1x256, .f32⟩
  | .hbm, ⟨42, _⟩ => ⟨S50000x256, .f32⟩
  | .hbm, ⟨43, _⟩ => ⟨S_, .i32⟩
  | .hbm, ⟨44, _⟩ => ⟨S600000, .i32⟩
  | .hbm, ⟨45, _⟩ => ⟨S600000, .i1⟩
  | .hbm, ⟨46, _⟩ => ⟨S_, .i32⟩
  | .hbm, ⟨47, _⟩ => ⟨S600000, .i32⟩
  | .hbm, ⟨48, _⟩ => ⟨S600000, .i32⟩
  | .hbm, ⟨49, _⟩ => ⟨S600000, .i32⟩
  | .hbm, ⟨50, _⟩ => ⟨S600000x1, .i32⟩
  | .hbm, ⟨51, _⟩ => ⟨S600000x256, .f32⟩
  | .hbm, ⟨52, _⟩ => ⟨S_, .f32⟩
  | .hbm, ⟨53, _⟩ => ⟨S50000x256, .f32⟩
  | .hbm, ⟨54, _⟩ => ⟨S600000x1, .i32⟩
  | .hbm, ⟨55, _⟩ => ⟨S50000x256, .f32⟩
  | .hbm, ⟨56, _⟩ => ⟨S1x256, .f32⟩
  | .hbm, ⟨57, _⟩ => ⟨S50000x256, .f32⟩
  | .hbm, ⟨58, _⟩ => ⟨S_, .i32⟩
  | .hbm, ⟨59, _⟩ => ⟨S600000, .i32⟩
  | .hbm, ⟨60, _⟩ => ⟨S600000, .i1⟩
  | .hbm, ⟨61, _⟩ => ⟨S_, .i32⟩
  | .hbm, ⟨62, _⟩ => ⟨S600000, .i32⟩
  | .hbm, ⟨63, _⟩ => ⟨S600000, .i32⟩
  | .hbm, ⟨64, _⟩ => ⟨S600000, .i32⟩
  | .hbm, ⟨65, _⟩ => ⟨S600000x1, .i32⟩
  | .hbm, ⟨66, _⟩ => ⟨S600000x256, .f32⟩
  | .hbm, ⟨67, _⟩ => ⟨S_, .f32⟩
  | .hbm, ⟨68, _⟩ => ⟨S50000x256, .f32⟩
  | .hbm, ⟨69, _⟩ => ⟨S600000x1, .i32⟩
  | .hbm, ⟨70, _⟩ => ⟨S50000x256, .f32⟩
  | .hbm, ⟨71, _⟩ => ⟨S1x256, .f32⟩
  | .hbm, ⟨72, _⟩ => ⟨S50000x256, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x256, .f32⟩
  | .local _ .vmem, ⟨7, _⟩ => ⟨S1x256, .f32⟩
  | .local _ .vmem, ⟨8, _⟩ => ⟨S128x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S5000x256, .f32⟩
  | .local _ .vmem, ⟨14, _⟩ => ⟨S5000x256, .f32⟩
  | .local _ .vmem, ⟨15, _⟩ => ⟨S5000x1, .f32⟩
  | .local _ .vmem, ⟨16, _⟩ => ⟨S5000x1, .f32⟩
  | .local _ .vmem, ⟨17, _⟩ => ⟨S256x256, .f32⟩
  | .local _ .vmem, ⟨18, _⟩ => ⟨S1x256, .f32⟩
  | .local _ .vmem, ⟨19, _⟩ => ⟨S256x256, .f32⟩
  | .local _ .vmem, ⟨20, _⟩ => ⟨S5000x256, .f32⟩
  | .local _ .vmem, ⟨21, _⟩ => ⟨S5000x256, .f32⟩
  | .local _ .vmem, ⟨22, _⟩ => ⟨S5000x256, .f32⟩
  | .local _ .vmem, ⟨23, _⟩ => ⟨S5000x256, .f32⟩
  | .local _ .vmem, ⟨24, _⟩ => ⟨S5000x256, .f32⟩
  | .local _ .vmem, ⟨25, _⟩ => ⟨S5000x256, .f32⟩
  | .local _ .vmem, ⟨26, _⟩ => ⟨S5000x1, .f32⟩
  | .local _ .vmem, ⟨27, _⟩ => ⟨S5000x1, .f32⟩
  | .local _ .vmem, ⟨28, _⟩ => ⟨S256x256, .f32⟩
  | .local _ .vmem, ⟨29, _⟩ => ⟨S1x256, .f32⟩
  | .local _ .vmem, ⟨30, _⟩ => ⟨S256x256, .f32⟩
  | .local _ .vmem, ⟨31, _⟩ => ⟨S5000x256, .f32⟩
  | .local _ .vmem, ⟨32, _⟩ => ⟨S5000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_c_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_10 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x256_S128x256_0_0 : ∀ a, (![0, 0] : Fin 2 → Nat) a + S128x256.size a ≤ S128x256.size a
  h_S128x256 : 0 < S128x256.numel
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S_S50000x256 : S_.BroadcastsInDim S50000x256 (![] : Fin 0 → Fin S50000x256.rank)
  shapeCasts_S5000x256_S5000x256 : S5000x256.ShapeCasts S5000x256
  broadcasts_S5000x1_S5000x256 : S5000x1.Broadcasts S5000x256
  inb_S256x256_S256x256_0_0 : ∀ a, (![0, 0] : Fin 2 → Nat) a + S256x256.size a ≤ S256x256.size a
  h_S256x256 : 0 < S256x256.numel
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x256_S5000x256_1_0_0_1_n_n_wf : DotDims.WF S5000x128 S128x256 S5000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S5000x256_S256x256_S5000x256_1_0_0_1_n_n_wf : DotDims.WF S5000x256 S256x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x256.size a ≤ S50000x256.size a
  hwx0_6 : ∀ i : grid0.Coords, EltTy.bits .f32 = 32 ∨ (Rect.block (s := S50000x256) S5000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S50000x256.size a
  hwx1_1 : ∀ i : grid1.Coords, EltTy.bits .f32 = 32 ∨ (Rect.block (s := S50000x256) S5000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x256.size a ≤ S50000x256.size a
  hwx1_6 : ∀ i : grid1.Coords, EltTy.bits .f32 = 32 ∨ (Rect.block (s := S50000x256) S5000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x256.size a ≤ S50000x256.size a
  hwx2_1 : ∀ i : grid2.Coords, EltTy.bits .f32 = 32 ∨ (Rect.block (s := S50000x256) S5000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .f32 = 32 ∨ (Rect.block (s := S256x256) S256x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x256.size a ≤ S50000x256.size a
  hwx2_6 : ∀ i : grid2.Coords, EltTy.bits .f32 = 32 ∨ (Rect.block (s := S50000x256) S5000x256.size (cc2_transform_6 i) (hinb2_6 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S5000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v34) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S5000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v46) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S5000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v48) S5000x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x256 : Shape := ⟨2, ![256, 256]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S600000x256 : Shape := ⟨2, ![600000, 256]⟩

abbrev nBuf : Space → Nat
  | .hbm => 114
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .f32⟩
  | .hbm, ⟨24, _⟩ => ⟨S_, .f32⟩
  | .hbm, ⟨25, _⟩ => ⟨S50000x128, .f32⟩
  | .hbm, ⟨26, _⟩ => ⟨S600000x1, .i32⟩
  | .hbm, ⟨27, _⟩ => ⟨S50000x128, .f32⟩
  | .hbm, ⟨28, _⟩ => ⟨S_, .f32⟩
  | .hbm, ⟨29, _⟩ => ⟨S600000, .f32⟩
  | .hbm, ⟨30, _⟩ => ⟨S_, .f32⟩
  | .hbm, ⟨31, _⟩ => ⟨S50000, .f32⟩
  | .hbm, ⟨32, _⟩ => ⟨S600000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S50000x256, .f32⟩
  | .hbm, ⟨41, _⟩ => ⟨S1x256, .f32⟩
  | .hbm, ⟨42, _⟩ => ⟨S50000x256, .f32⟩
  | .hbm, ⟨43, _⟩ => ⟨S50000x256, .f32⟩
  | .hbm, ⟨44, _⟩ => ⟨S50000x256, .f32⟩
  | .hbm, ⟨45, _⟩ => ⟨S50000x256, .f32⟩
  | .hbm, ⟨46, _⟩ => ⟨S_, .f32⟩
  | .hbm, ⟨47, _⟩ => ⟨S50000x256, .f32⟩
  | .hbm, ⟨48, _⟩ => ⟨S50000x256, .f32⟩
  | .hbm, ⟨49, _⟩ => ⟨S_, .i32⟩
  | .hbm, ⟨50, _⟩ => ⟨S600000, .i32⟩
  | .hbm, ⟨51, _⟩ => ⟨S600000, .i1⟩
  | .hbm, ⟨52, _⟩ => ⟨S_, .i32⟩
  | .hbm, ⟨53, _⟩ => ⟨S600000, .i32⟩
  | .hbm, ⟨54, _⟩ => ⟨S600000, .i32⟩
  | .hbm, ⟨55, _⟩ => ⟨S600000, .i32⟩
  | .hbm, ⟨56, _⟩ => ⟨S600000x1, .i32⟩
  | .hbm, ⟨57, _⟩ => ⟨S600000x256, .f32⟩
  | .hbm, ⟨58, _⟩ => ⟨S_, .f32⟩
  | .hbm, ⟨59, _⟩ => ⟨S50000x256, .f32⟩
  | .hbm, ⟨60, _⟩ => ⟨S600000x1, .i32⟩
  | .hbm, ⟨61, _⟩ => ⟨S50000x256, .f32⟩
  | .hbm, ⟨62, _⟩ => ⟨S_, .f32⟩
  | .hbm, ⟨63, _⟩ => ⟨S600000, .f32⟩
  | .hbm, ⟨64, _⟩ => ⟨S_, .f32⟩
  | .hbm, ⟨65, _⟩ => ⟨S50000, .f32⟩
  | .hbm, ⟨66, _⟩ => ⟨S600000x1, .i32⟩
  | .hbm, ⟨67, _⟩ => ⟨S50000, .f32⟩
  | .hbm, ⟨68, _⟩ => ⟨S_, .f32⟩
  | .hbm, ⟨69, _⟩ => ⟨S50000, .f32⟩
  | .hbm, ⟨70, _⟩ => ⟨S50000, .f32⟩
  | .hbm, ⟨71, _⟩ => ⟨S50000x1, .f32⟩
  | .hbm, ⟨72, _⟩ => ⟨S50000x256, .f32⟩
  | .hbm, ⟨73, _⟩ => ⟨S50000x256, .f32⟩
  | .hbm, ⟨74, _⟩ => ⟨S50000x256, .f32⟩
  | .hbm, ⟨75, _⟩ => ⟨S1x256, .f32⟩
  | .hbm, ⟨76, _⟩ => ⟨S50000x256, .f32⟩
  | .hbm, ⟨77, _⟩ => ⟨S50000x256, .f32⟩
  | .hbm, ⟨78, _⟩ => ⟨S50000x256, .f32⟩
  | .hbm, ⟨79, _⟩ => ⟨S50000x256, .f32⟩
  | .hbm, ⟨80, _⟩ => ⟨S_, .f32⟩
  | .hbm, ⟨81, _⟩ => ⟨S50000x256, .f32⟩
  | .hbm, ⟨82, _⟩ => ⟨S50000x256, .f32⟩
  | .hbm, ⟨83, _⟩ => ⟨S_, .i32⟩
  | .hbm, ⟨84, _⟩ => ⟨S600000, .i32⟩
  | .hbm, ⟨85, _⟩ => ⟨S600000, .i1⟩
  | .hbm, ⟨86, _⟩ => ⟨S_, .i32⟩
  | .hbm, ⟨87, _⟩ => ⟨S600000, .i32⟩
  | .hbm, ⟨88, _⟩ => ⟨S600000, .i32⟩
  | .hbm, ⟨89, _⟩ => ⟨S600000, .i32⟩
  | .hbm, ⟨90, _⟩ => ⟨S600000x1, .i32⟩
  | .hbm, ⟨91, _⟩ => ⟨S600000x256, .f32⟩
  | .hbm, ⟨92, _⟩ => ⟨S_, .f32⟩
  | .hbm, ⟨93, _⟩ => ⟨S50000x256, .f32⟩
  | .hbm, ⟨94, _⟩ => ⟨S600000x1, .i32⟩
  | .hbm, ⟨95, _⟩ => ⟨S50000x256, .f32⟩
  | .hbm, ⟨96, _⟩ => ⟨S_, .f32⟩
  | .hbm, ⟨97, _⟩ => ⟨S600000, .f32⟩
  | .hbm, ⟨98, _⟩ => ⟨S_, .f32⟩
  | .hbm, ⟨99, _⟩ => ⟨S50000, .f32⟩
  | .hbm, ⟨100, _⟩ => ⟨S600000x1, .i32⟩
  | .hbm, ⟨101, _⟩ => ⟨S50000, .f32⟩
  | .hbm, ⟨102, _⟩ => ⟨S_, .f32⟩
  | .hbm, ⟨103, _⟩ => ⟨S50000, .f32⟩
  | .hbm, ⟨104, _⟩ => ⟨S50000, .f32⟩
  | .hbm, ⟨105, _⟩ => ⟨S50000x1, .f32⟩
  | .hbm, ⟨106, _⟩ => ⟨S50000x256, .f32⟩
  | .hbm, ⟨107, _⟩ => ⟨S50000x256, .f32⟩
  | .hbm, ⟨108, _⟩ => ⟨S50000x256, .f32⟩
  | .hbm, ⟨109, _⟩ => ⟨S1x256, .f32⟩
  | .hbm, ⟨110, _⟩ => ⟨S50000x256, .f32⟩
  | .hbm, ⟨111, _⟩ => ⟨S50000x256, .f32⟩
  | .hbm, ⟨112, _⟩ => ⟨S50000x256, .f32⟩
  | .hbm, ⟨113, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call1_cst : Ref sig .tc := ⟨.hbm, 80, rfl⟩
abbrev main_call1_v0 : Ref sig .tc := ⟨.hbm, 81, rfl⟩
abbrev main_v55 : Ref sig .tc := ⟨.hbm, 82, rfl⟩
abbrev main_c_10 : Ref sig .tc := ⟨.hbm, 83, rfl⟩
abbrev main_v56 : Ref sig .tc := ⟨.hbm, 84, rfl⟩
abbrev main_v57 : Ref sig .tc := ⟨.hbm, 85, rfl⟩
abbrev main_c_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_12 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_13 : Ref sig .tc := ⟨.hbm, 96, rfl⟩
abbrev main_v66 : Ref sig .tc := ⟨.hbm, 97, rfl⟩
abbrev main_cst_14 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_15 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x256_S50000x256_1_0_0_1_n_n_wf : DotDims.WF S50000x128 S128x256 S50000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S50000x256_S256x256_S50000x256_1_0_0_1_n_n_wf : DotDims.WF S50000x256 S256x256 S50000x256 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.KernelRun.lean ====
/-
  The idealized kernel's run with its RESULT named.

  The program is three launches of one linear-layer kernel among stretches of host operations.  Its run leaves every
  unscoped buffer of a core at the contents `W6` — the fold, through the host stretches and the three launches, of the
  launch memory.  The frame claim (every argument array ends as it was) reads only the eleven argument buffers off that
  final state; the value claim (the result is the reference's) needs one more, the buffer of the third launch's output, which is @main's result.  So the same launch theorem is applied
  with the final state read at twelve buffers: the result at `W6`, each argument at its launch contents.
-/
import proofs.«145860_j89996744720665_2_alg».proof.Proof.PatchedKernelIdealFrame

set_option maxRecDepth 16384

noncomputable section

namespace Cert.KernelIdeal.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the statement below is the launch theorem's conclusion up to unfolding definitions
set_option backward.isDefEq.respectTransparency.types false in
/-- Every weakly fair execution of the idealized kernel's @main terminates without a fault; the result buffer ends at
    the final fold `W6` read at that buffer, and the argument arrays end as launched. -/
theorem run_result : θ_run defs (onTc (τ := τ) (main (F := F))) ⟨m, fun _ => 0, ρ⟩ (fun r => ∀ c : Dev nD,
      r.2.mem ((c.tc : Thread nD τ).loc main_v48) = W6 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v48 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

/-- The result buffer is the third launch's output window: the final fold there is what that launch's write-backs leave. -/
theorem W6_result (c : Dev nD) :
    W6 m ρ c (Proc.devRef .tc main_v48) = (dat2 (V5 m ρ) c).arrAt 6 cfg2.N :=
  W6_arr m ρ c 6

end Cert.KernelIdeal.Layers

end
-- ==== Proof.LibRealArrays.lean ====
/-
  Real-valued arrays of extended reals.

  An array `v : ι → EReal` is REAL-VALUED when every entry is (the image of) a real number: no entry is +∞ or -∞.
  On such arrays the extended reals behave as the reals do — in particular `x - x = 0` and products distribute over
  sums —, which is what the laws joining two arrangements of one computation need.  This file only fixes the
  predicate and its two most basic facts; the closure properties live beside the operations they speak of.
-/
import Mathlib.Data.EReal.Basic

namespace Cert.RealArrays

/-- Every entry of `v` is a real number. -/
def IsReal {ι : Type*} (v : ι → EReal) : Prop := ∃ f : ι → ℝ, ∀ i, v i = ((f i : ℝ) : EReal)

/-- A real-valued array read through any re-indexing is real-valued. -/
theorem IsReal.comp {ι κ : Type*} {v : ι → EReal} (hv : IsReal v) (g : κ → ι) : IsReal (fun j => v (g j)) := by
  obtain ⟨f, hf⟩ := hv
  exact ⟨fun j => f (g j), fun j => hf (g j)⟩

/-- An array given by real numbers is real-valued. -/
theorem isReal_coe {ι : Type*} (f : ι → ℝ) : IsReal (fun i => ((f i : ℝ) : EReal)) := ⟨f, fun _ => rfl⟩

/-- An entry of a real-valued array is not +∞. -/
theorem IsReal.ne_top {ι : Type*} {v : ι → EReal} (hv : IsReal v) (i : ι) : v i ≠ ⊤ := by
  obtain ⟨f, hf⟩ := hv; rw [hf i]; exact EReal.coe_ne_top _

/-- An entry of a real-valued array is not -∞. -/
theorem IsReal.ne_bot {ι : Type*} {v : ι → EReal} (hv : IsReal v) (i : ι) : v i ≠ ⊥ := by
  obtain ⟨f, hf⟩ := hv; rw [hf i]; exact EReal.coe_ne_bot _

end Cert.RealArrays
-- ==== Proof.LayerLaw.lean ====
/-
  One entry of a mean-aggregation layer, in two arrangements, and the law that joins them.

  Fix a node and an output channel.  Let `a k` be the node's summed neighbour features, `x k` the node's own
  features, `wl k`, `wr k` the two weight columns of the channel and `b` its bias.

  * The reference divides the neighbour sum by the node's degree `D` (at least 1) and takes two plain products:
      `(∑ k, (a k / D) · wl k  +  b)  +  ∑ k, x k · wr k`.
  * The kernel multiplies by the reciprocal `s = 1 / D` instead and takes each product in three passes, splitting
    an operand `u` into a leading part and the remainder `u - (leading part)`.  With exact arithmetic the leading
    part is `u` itself, so the remainder is `u - u` and a product `u · v` is taken as
      `(∑ u·v  +  ∑ u·(v - v))  +  ∑ (u - u)·v`.

  On the extended reals `u - u` is `0` exactly when `u` is a real number (`∞ - ∞` is not `0`), and then the two
  extra passes vanish; multiplying by the real `1 / D` is dividing by `D`; and the bias may be added before or after
  the second product because addition of extended reals is commutative and associative.  So the two arrangements
  agree whenever the features and weights are real — the bias may be any extended real.
-/
import Idealize.ShloMosaic.PureOps.Ideal
import proofs.«145860_j89996744720665_2_alg».proof.Proof.LibRealArrays

noncomputable section

namespace Cert.MeanLayer

open Idealize.ShloMosaic Cert.RealArrays

variable {K : Type*} [Fintype K]

/-- A product `∑ u·v` taken in three passes with exact leading parts. -/
def split3 (u v : K → EReal) : EReal :=
  ((∑ k, u k * v k) + ∑ k, u k * (v k - v k)) + ∑ k, (u k - u k) * v k

/-- The kernel's arrangement of one entry: scale by `s`, two three-pass products, then the bias. -/
def splitEntry (a x : K → EReal) (s : EReal) (wl wr : K → EReal) (b : EReal) : EReal :=
  (split3 (fun k => a k * s) wl + split3 x wr) + b

/-- The reference's arrangement of one entry: divide by `D`, a product, the bias, the second product. -/
def meanEntry (a x : K → EReal) (D : EReal) (wl wr : K → EReal) (b : EReal) : EReal :=
  ((∑ k, Ideal.div (a k) D * wl k) + b) + ∑ k, x k * wr k

/-- On real operands the two extra passes of a three-pass product vanish. -/
theorem split3_eq {u v : K → EReal} (hu : IsReal u) (hv : IsReal v) : split3 u v = ∑ k, u k * v k := by
  obtain ⟨fu, hu⟩ := hu
  obtain ⟨fv, hv⟩ := hv
  unfold split3
  have h1 : ∑ k, u k * (v k - v k) = 0 :=
    Finset.sum_eq_zero fun k _ => by rw [hv k, ← EReal.coe_sub, sub_self, EReal.coe_zero, mul_zero]
  have h2 : ∑ k, (u k - u k) * v k = 0 :=
    Finset.sum_eq_zero fun k _ => by rw [hu k, ← EReal.coe_sub, sub_self, EReal.coe_zero, zero_mul]
  rw [h1, h2, add_zero, add_zero]

/-- THE LAW: with real features and weights and a nonzero real degree, the kernel's entry at the reciprocal of the
    degree is the reference's entry at the degree. -/
theorem splitEntry_eq_meanEntry {a x wl wr : K → EReal} (ha : IsReal a) (hx : IsReal x) (hwl : IsReal wl)
    (hwr : IsReal wr) {D : ℝ} (hD : D ≠ 0) (b : EReal) :
    splitEntry a x (Ideal.div 1 (D : EReal)) wl wr b = meanEntry a x (D : EReal) wl wr b := by
  have hs : Ideal.div 1 (D : EReal) = ((1 / D : ℝ) : EReal) := by rw [Ideal.div_coe hD, one_mul]
  have has : IsReal fun k => a k * Ideal.div 1 (D : EReal) := by
    obtain ⟨fa, hfa⟩ := ha
    exact ⟨fun k => fa k * (1 / D), fun k => by
      show a k * Ideal.div 1 (D : EReal) = ((fa k * (1 / D) : ℝ) : EReal)
      rw [hfa k, hs, ← EReal.coe_mul]⟩
  unfold splitEntry meanEntry
  rw [split3_eq has hwl, split3_eq hx hwr, add_right_comm]
  congr 2
  refine Finset.sum_congr rfl fun k _ => ?_
  rw [hs, Ideal.div_coe hD]

end Cert.MeanLayer

end
-- ==== Proof.LibPlainDot.lean ====
/-
  A plain matrix product's contraction sum, read at an index.

  For the dimension numbers of an `[M, K] × [K, N] → [M, N]` product — the left operand contracted on its second
  axis, the right on its first, no batch axis — the contraction index has one coordinate, ranging over `Fin K`; at the
  result index `(r, c)` and contraction position `k` the left operand is read at `(r, k)` and the right at `(k, c)`.
  So a sum over the contraction index of any function of the two operand indices is the sum over `k : Fin K` of that
  function at `(r, k)` and `(k, c)`. Both a kernel's matrix unit product into a zero accumulator and the host's
  `dot_general` are such sums over the extended reals (of the products of the operands' entries), so this is the one
  re-indexing either needs.
-/
import Idealize.ShloMosaic.PureOps.Dims
import Idealize.ShloMosaic.Lib.ValueIdx

namespace Idealize.ShloMosaic.PlainDot

open Idealize.ShloMosaic Idealize.ShloMosaic.ValueIdx

/-- The left operand's index at result index `(r, c)` and contraction position `k` is `(r, k)`, the right operand's
    `(k, c)`, for any record with the plain product's dimension numbers; `e` is the bijection between the contraction
    index and `Fin K`. -/
theorem plain_idx {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (r : Fin M) (c : Fin N) (k : Fin K) :
    d.lhsIdx (ix2 r c) ((contrEquiv1 d K hr hs).symm k) = ix2 r k
      ∧ d.rhsIdx (ix2 r c) ((contrEquiv1 d K hr hs).symm k) = ix2 k c := by
  constructor
  · funext a
    refine Fin.ext ?_
    match a with
    | ⟨0, _⟩ =>
      show (d.lhsIdx (ix2 r c) ((contrEquiv1 d K hr hs).symm k) 0).val = r.val
      unfold DotDims.lhsIdx
      rw [dif_neg (by rw [h5]; exact List.not_mem_nil), dif_pos (by rw [h3]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 0 _ (by decide) (by simp [h5, h3])
    | ⟨1, _⟩ =>
      show (d.lhsIdx (ix2 r c) ((contrEquiv1 d K hr hs).symm k) 1).val = k.val
      rw [d.lhsIdx_val_of_single h1]
      exact contrEquiv1_symm_val d K hr hs k
  · funext a
    refine Fin.ext ?_
    match a with
    | ⟨0, _⟩ =>
      show (d.rhsIdx (ix2 r c) ((contrEquiv1 d K hr hs).symm k) 0).val = k.val
      rw [d.rhsIdx_val_of_single h2]
      exact contrEquiv1_symm_val d K hr hs k
    | ⟨1, _⟩ =>
      show (d.rhsIdx (ix2 r c) ((contrEquiv1 d K hr hs).symm k) 1).val = c.val
      unfold DotDims.rhsIdx
      rw [dif_neg (by rw [h6]; exact List.not_mem_nil), dif_pos (by rw [h4]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 1 _ (by decide) (by simp [h5, h3, h4])

/-- THE CONTRACTION SUM OF A PLAIN PRODUCT at `(r, c)`: the sum over `k : Fin K` at the operand indices `(r, k)` and
    `(k, c)`, in any commutative additive monoid. -/
theorem plain_sum {β : Type*} [AddCommMonoid β] {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K)
    (f : (⟨2, ![M, K]⟩ : Shape).Idx → (⟨2, ![K, N]⟩ : Shape).Idx → β) (r : Fin M) (c : Fin N) :
    ∑ q : d.contr.Idx, f (d.lhsIdx (ix2 r c) q) (d.rhsIdx (ix2 r c) q) = ∑ k : Fin K, f (ix2 r k) (ix2 k c) := by
  rw [← Equiv.sum_comp (contrEquiv1 d K hr hs).symm]
  refine Finset.sum_congr rfl fun k _ => ?_
  obtain ⟨hl, hr'⟩ := plain_idx d h1 h2 h3 h4 h5 h6 hr hs r c k
  rw [hl, hr']

end Idealize.ShloMosaic.PlainDot
-- ==== Proof.LibRowsTimes.lean ====
/-
  A plain matrix product over the extended reals, as one function of its two operands.

  `rowsTimes x w` is the array whose entry `(r, c)` is the sum over `k` of `x (r, k) · w (k, c)`. Both the matrix unit's
  product into a zero accumulator and the host's `dot_general` ARE this function when their dimension numbers are the plain
  product's (the left operand contracted on its second axis, the right on its first, no batch axis): each is by definition
  the sum, over the contraction index, of the products of the operands' entries at the record's operand indices, and that
  sum is re-indexed by `k : Fin K` (`PlainDot.plain_sum`). Nothing here uses finiteness: the two sides are the same sum of
  the same products, term by term.
-/
import proofs.«145860_j89996744720665_2_alg».proof.Proof.LibPlainDot
import Idealize.ShloMosaic.PureOps.Ideal.Laws

noncomputable section

namespace Idealize.ShloMosaic.RowsTimes

open Idealize.ShloMosaic Idealize.ShloMosaic.ValueIdx

/-- Entry `(r, c)` is the sum over `k` of `x (r, k) · w (k, c)`. -/
def rowsTimes {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem rowsTimes_apply {M K N : Nat} (x : (⟨2, ![M, K]⟩ : Shape).Idx → EReal) (w : (⟨2, ![K, N]⟩ : Shape).Idx → EReal)
    (r : Fin M) (c : Fin N) : rowsTimes x w (ix2 r c) = ∑ k : Fin K, x (ix2 r k) * w (ix2 k c) := rfl

/-- The matrix unit's product into the zero accumulator, at an entry: the plain sum of products. -/
theorem matmul_zero_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (prec : Option ContractPrecision)
    (x : FVec Ideal ⟨2, ![M, K]⟩ φ₁) (w : FVec Ideal ⟨2, ![K, N]⟩ φ₂) (r : Fin M) (c : Fin N) :
    FloatOps.matmul d prec x w (constant ⟨2, ![M, N]⟩ .f32 0x00000000#32) (ix2 r c)
      = ∑ k : Fin K, x (ix2 r k) * w (ix2 k c) :=
  (Ideal.matmul_constant_zero_apply d prec x w (ix2 r c)).trans
    (PlainDot.plain_sum d h1 h2 h3 h4 h5 h6 hr hs (fun i j => x i * w j) r c)

/-- The host's `dot_general` of a plain product IS `rowsTimes` of its operands. -/
theorem hostDot_eq {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (prec : Option ContractPrecision)
    (x : FVec Ideal ⟨2, ![M, K]⟩ φ₁) (w : FVec Ideal ⟨2, ![K, N]⟩ φ₂) :
    Host.dotGeneral (F := Ideal) d prec x w = rowsTimes x w := by
  funext i
  obtain ⟨r, c, rfl⟩ : ∃ (r : Fin M) (c : Fin N), i = ix2 r c := ⟨i 0, i 1, eq_ix2 i⟩
  unfold Host.dotGeneral
  rw [Ideal.dotGeneral_apply]
  exact PlainDot.plain_sum d h1 h2 h3 h4 h5 h6 hr hs (fun i j => x i * w j) r c

end Idealize.ShloMosaic.RowsTimes

end
-- ==== Proof.LibColumnBroadcast.lean ====
/-
  A column broadcast along the rows of a matrix, read at an index.

  A vector kept as an `[a, 1]` column (one entry per row) and broadcast to `[a, b]` repeats each row's entry across
  that row: at `(p, c)` the result is the column's entry of row `p`, whatever the column `c`. This is the form a
  per-row scale, bias or divisor takes before it meets an `[a, b]` matrix elementwise.
-/
import Idealize.ShloMosaic.Lib.ValueLayout

namespace Idealize.ShloMosaic.ValueIdx

open Idealize.ShloMosaic

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelEntry.lean ====
/-
  What one launch stores, entry by entry.

  The body of a launch loads its six blocks whole — 5000 rows of the two feature arrays and of the degree column, the two
  weight matrices and the bias row —, scales the first block's rows by the column, takes each of the two matrix products
  in three passes (an operand against the other's leading part and remainder, the remainders being differences of a
  value with itself after the exact change of format), adds the products and the bias row, and — in the first two launches
  — takes the maximum with zero.  Read at row `p` and channel `q`, with each matrix product into a zero accumulator read
  as the plain sum over the contracted index, that is `MeanLayer.splitEntry` of the row `p` of the two feature blocks,
  the column's entry at `p`, the columns `q` of the two weights and the bias entry at `q`.
-/
import proofs.«145860_j89996744720665_2_alg».proof.Proof.Gen.KernelIdeal.Skeleton
import proofs.«145860_j89996744720665_2_alg».proof.Proof.LayerLaw
import proofs.«145860_j89996744720665_2_alg».proof.Proof.LibRowsTimes
import proofs.«145860_j89996744720665_2_alg».proof.Proof.LibColumnBroadcast
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Layers

open Idealize.ShloMosaic Idealize.ShloMosaic.ValueIdx Idealize.ShloMosaic.RowsTimes
open Cert.KernelIdeal Cert.KernelIdeal.Gen Cert.MeanLayer

/-- The float word of all zero bits is the number zero. -/
theorem zero_word : (Scalar.ofBits (F := Ideal) .f32 0x00000000#32 : EReal) = 0 := Ideal.ofBits_zero_f32

/-- Launch 0: the value assembled before the final step, at row `p` and channel `q` of a block, is the kernel's
    arrangement of the entry — the row of the first input scaled by the row's entry of the column, against the column of
    the first weight, in three passes; the row of the second input against the column of the second weight, in three
    passes; plus the bias row's entry. -/
theorem entry0 (x0 x1 : Vec Ideal S5000x128 .f32) (x2 : Vec Ideal S5000x1 .f32) (x3 x5 : Vec Ideal S128x256 .f32)
    (x4 : Vec Ideal S1x256 .f32) (p : Fin 5000) (q : Fin 256) :
    k0_pay2 (F := Ideal) x0 x2 x1 x3 x5 x4 (ix2 p q)
      = splitEntry (fun k : Fin 128 => x0 (ix2 p k)) (fun k : Fin 128 => x1 (ix2 p k)) (x2 (ix2 p (0 : Fin 1)))
          (fun k : Fin 128 => x3 (ix2 k q)) (fun k : Fin 128 => x5 (ix2 k q)) (x4 (ix2 (0 : Fin 1) q)) := by
  unfold k0_pay2 splitEntry split3
  simp only [addf_apply]
  have hm : ∀ {φ₁ φ₂ : FTy} (l : FVec Ideal S5000x128 φ₁) (r : FVec Ideal S128x256 φ₂),
      matmul dot_S5000x128_S128x256_S5000x256_1_0_0_1_n_n none l r (constant S5000x256 .f32 0x00000000#32) (ix2 p q)
        = ∑ k : Fin 128, l (ix2 p k) * r (ix2 k q) :=
    fun l r => matmul_zero_apply dot_S5000x128_S128x256_S5000x256_1_0_0_1_n_n rfl rfl rfl rfl rfl rfl rfl rfl none l r p q
  simp only [hm, truncf_apply, mulf_apply, subf_apply, shapeCast_self, broadcastTo_a1_ab_apply, broadcastTo_1b_ab_apply]

/-- Launch 0 stores `max · 0` of that value. -/
theorem stored0 (x0 x1 : Vec Ideal S5000x128 .f32) (x2 : Vec Ideal S5000x1 .f32) (x3 x5 : Vec Ideal S128x256 .f32)
    (x4 : Vec Ideal S1x256 .f32) (p : Fin 5000) (q : Fin 256) :
    k0_pay1 (F := Ideal) (k0_pay2 (F := Ideal) x0 x2 x1 x3 x5 x4) (Scalar.ofBits .f32 0x00000000#32) (ix2 p q)
      = max (splitEntry (fun k : Fin 128 => x0 (ix2 p k)) (fun k : Fin 128 => x1 (ix2 p k)) (x2 (ix2 p (0 : Fin 1)))
          (fun k : Fin 128 => x3 (ix2 k q)) (fun k : Fin 128 => x5 (ix2 k q)) (x4 (ix2 (0 : Fin 1) q))) 0 := by
  rw [← entry0 x0 x1 x2 x3 x5 x4 p q]
  unfold k0_pay1
  simp only [maximumf_apply, broadcast_apply]
  exact congrArg (max _) zero_word

/-- Launch 1: the value assembled before the final step, at row `p` and channel `q` of a block, is the kernel's
    arrangement of the entry — the row of the first input scaled by the row's entry of the column, against the column of
    the first weight, in three passes; the row of the second input against the column of the second weight, in three
    passes; plus the bias row's entry. -/
theorem entry1 (x0 x1 : Vec Ideal S5000x256 .f32) (x2 : Vec Ideal S5000x1 .f32) (x3 x5 : Vec Ideal S256x256 .f32)
    (x4 : Vec Ideal S1x256 .f32) (p : Fin 5000) (q : Fin 256) :
    k1_pay2 (F := Ideal) x0 x2 x1 x3 x5 x4 (ix2 p q)
      = splitEntry (fun k : Fin 256 => x0 (ix2 p k)) (fun k : Fin 256 => x1 (ix2 p k)) (x2 (ix2 p (0 : Fin 1)))
          (fun k : Fin 256 => x3 (ix2 k q)) (fun k : Fin 256 => x5 (ix2 k q)) (x4 (ix2 (0 : Fin 1) q)) := by
  unfold k1_pay2 splitEntry split3
  simp only [addf_apply]
  have hm : ∀ {φ₁ φ₂ : FTy} (l : FVec Ideal S5000x256 φ₁) (r : FVec Ideal S256x256 φ₂),
      matmul dot_S5000x256_S256x256_S5000x256_1_0_0_1_n_n none l r (constant S5000x256 .f32 0x00000000#32) (ix2 p q)
        = ∑ k : Fin 256, l (ix2 p k) * r (ix2 k q) :=
    fun l r => matmul_zero_apply dot_S5000x256_S256x256_S5000x256_1_0_0_1_n_n rfl rfl rfl rfl rfl rfl rfl rfl none l r p q
  simp only [hm, truncf_apply, mulf_apply, subf_apply, shapeCast_self, broadcastTo_a1_ab_apply, broadcastTo_1b_ab_apply]

/-- Launch 1 stores `max · 0` of that value. -/
theorem stored1 (x0 x1 : Vec Ideal S5000x256 .f32) (x2 : Vec Ideal S5000x1 .f32) (x3 x5 : Vec Ideal S256x256 .f32)
    (x4 : Vec Ideal S1x256 .f32) (p : Fin 5000) (q : Fin 256) :
    k1_pay1 (F := Ideal) (k1_pay2 (F := Ideal) x0 x2 x1 x3 x5 x4) (ix2 p q)
      = max (splitEntry (fun k : Fin 256 => x0 (ix2 p k)) (fun k : Fin 256 => x1 (ix2 p k)) (x2 (ix2 p (0 : Fin 1)))
          (fun k : Fin 256 => x3 (ix2 k q)) (fun k : Fin 256 => x5 (ix2 k q)) (x4 (ix2 (0 : Fin 1) q))) 0 := by
  rw [← entry1 x0 x1 x2 x3 x5 x4 p q]
  unfold k1_pay1
  simp only [maximumf_apply, broadcast_apply]
  exact congrArg (max _) zero_word

/-- Launch 2: the value it stores (the last launch takes no maximum with zero), at row `p` and channel `q` of a block, is
    the kernel's arrangement of the entry — the row of the first input scaled by the row's entry of the column, against the column of
    the first weight, in three passes; the row of the second input against the column of the second weight, in three
    passes; plus the bias row's entry. -/
theorem entry2 (x0 x1 : Vec Ideal S5000x256 .f32) (x2 : Vec Ideal S5000x1 .f32) (x3 x5 : Vec Ideal S256x256 .f32)
    (x4 : Vec Ideal S1x256 .f32) (p : Fin 5000) (q : Fin 256) :
    k2_pay1 (F := Ideal) x0 x2 x1 x3 x5 x4 (ix2 p q)
      = splitEntry (fun k : Fin 256 => x0 (ix2 p k)) (fun k : Fin 256 => x1 (ix2 p k)) (x2 (ix2 p (0 : Fin 1)))
          (fun k : Fin 256 => x3 (ix2 k q)) (fun k : Fin 256 => x5 (ix2 k q)) (x4 (ix2 (0 : Fin 1) q)) := by
  unfold k2_pay1 splitEntry split3
  simp only [addf_apply]
  have hm : ∀ {φ₁ φ₂ : FTy} (l : FVec Ideal S5000x256 φ₁) (r : FVec Ideal S256x256 φ₂),
      matmul dot_S5000x256_S256x256_S5000x256_1_0_0_1_n_n none l r (constant S5000x256 .f32 0x00000000#32) (ix2 p q)
        = ∑ k : Fin 256, l (ix2 p k) * r (ix2 k q) :=
    fun l r => matmul_zero_apply dot_S5000x256_S256x256_S5000x256_1_0_0_1_n_n rfl rfl rfl rfl rfl rfl rfl rfl none l r p q
  simp only [hm, truncf_apply, mulf_apply, subf_apply, shapeCast_self, broadcastTo_a1_ab_apply, broadcastTo_1b_ab_apply]

end Cert.KernelIdeal.Layers

end
-- ==== Proof.Spec.lean ====
/-
  The specification: a three-layer mean-aggregation network as ONE function of the argument arrays.

  The graph has 50000 nodes and 600000 directed edges `(src e, dst e)`, given as the two rows of an integer array.
  One layer maps node features `h` (one row per node) to
      `out i  =  (mean over the edges into i of h (src e)) · Wl  +  bl  +  h i · Wr`,
  where the mean divides the sum over the incoming edges by `max (degree i) 1`, the degree being the number of
  incoming edges.  The sum over incoming edges and the degree are computed by the SAME host operations in both programs —
  a gather of the source rows and an accumulating scatter into the destination rows —, so they are carried here as
  named functions of the edge array (`neighbourSum…`, `degree`) and never opened, except to see that they keep real
  features real.  An entry of a layer is `MeanLayer.meanEntry` of the node's row of the neighbour sum, the node's own
  row, its clamped degree, the two weight columns and the bias entry; the network is three layers with `max · 0`
  after the first two.
-/
import proofs.«145860_j89996744720665_2_alg».proof.KernelIdeal
import proofs.«145860_j89996744720665_2_alg».proof.Proof.LayerLaw
import Idealize.ShloMosaic.Lib.ValueIdx

noncomputable section

namespace Cert.MeanLayer

open Idealize.ShloMosaic Idealize.ShloMosaic.ValueIdx Cert.KernelIdeal
open Cert.KernelIdeal.Facts₀ Cert.KernelIdeal.Facts

variable [Cert.KernelIdeal.Facts]

/-- The edges' destination nodes, as the index column the scatter reads. -/
def dstCol (e : IVec S2x600000 32) : IVec S600000x1 32 :=
  broadcastInDim S600000x1 ![0] bcast_S600000_S600000x1_0
    (shapeCast _ (extractStridedSlice S1x600000 ![1, 0] e slices_S2x600000_S1x600000_1_0) shapeCasts_S1x600000_S600000)

/-- The edges' source nodes (a negative index counted from the end), as the index column the gather reads. -/
def srcCol (e : IVec S2x600000 32) : IVec S600000x1 32 :=
  broadcastInDim S600000x1 ![0] bcast_S600000_S600000x1_0
    (select
      (cmpi .slt (shapeCast _ (extractStridedSlice S1x600000 ![0, 0] e slices_S2x600000_S1x600000_0_0) shapeCasts_S1x600000_S600000)
        (broadcastInDim S600000 ![] bcast_S_S600000 (constantI S_ 32 0#32)))
      (addi (shapeCast _ (extractStridedSlice S1x600000 ![0, 0] e slices_S2x600000_S1x600000_0_0) shapeCasts_S1x600000_S600000)
        (broadcastInDim S600000 ![] bcast_S_S600000 (constantI S_ 32 50000#32)))
      (shapeCast _ (extractStridedSlice S1x600000 ![0, 0] e slices_S2x600000_S1x600000_0_0) shapeCasts_S1x600000_S600000))

/-- The number of edges into each node: ones accumulated at the destinations. -/
def degree (e : IVec S2x600000 32) : FVec Ideal S50000 .f32 :=
  Host.scatterAdd (F := Ideal) scatter_S50000_S600000x1_S600000_n_0_0_1
    (broadcastInDim S50000 ![] bcast_S_S50000 (constant (F := Ideal) S_ .f32 0x00000000#32)) (dstCol e)
    (broadcastInDim S600000 ![] bcast_S_S600000 (constant (F := Ideal) S_ .f32 0x3F800000#32))

/-- The degree clamped below at one: what the mean divides by. -/
def clampedDegree (e : IVec S2x600000 32) : FVec Ideal S50000 .f32 :=
  maximumf (degree e) (broadcastInDim S50000 ![] bcast_S_S50000 (constant (F := Ideal) S_ .f32 0x3F800000#32))

/-- The sum, over the edges into each node, of the source node's row of 128 features. -/
def neighbourSum128 (h : FVec Ideal S50000x128 .f32) (e : IVec S2x600000 32) : FVec Ideal S50000x128 .f32 :=
  Host.scatterAdd (F := Ideal) scatter_S50000x128_S600000x1_S600000x128_1_0_0_1
    (broadcastInDim S50000x128 ![] bcast_S_S50000x128 (constant (F := Ideal) S_ .f32 0x00000000#32)) (dstCol e)
    (Host.gather gather_S50000x128_S600000x1_S600000x128_1_0_n_n_0_1_1128 h (srcCol e))

/-- The same for rows of 256 features. -/
def neighbourSum256 (h : FVec Ideal S50000x256 .f32) (e : IVec S2x600000 32) : FVec Ideal S50000x256 .f32 :=
  Host.scatterAdd (F := Ideal) scatter_S50000x256_S600000x1_S600000x256_1_0_0_1
    (broadcastInDim S50000x256 ![] bcast_S_S50000x256 (constant (F := Ideal) S_ .f32 0x00000000#32)) (dstCol e)
    (Host.gather gather_S50000x256_S600000x1_S600000x256_1_0_n_n_0_1_1256 h (srcCol e))

/-- One layer on 128 input features: entry `(i, j)` from node `i`'s rows and channel `j`'s columns. -/
def layer128 (h : FVec Ideal S50000x128 .f32) (e : IVec S2x600000 32) (wl wr : FVec Ideal S128x256 .f32)
    (bl : FVec Ideal S256 .f32) : FVec Ideal S50000x256 .f32 :=
  fun i => meanEntry (fun k : Fin 128 => neighbourSum128 h e (ix2 (i 0) k)) (fun k : Fin 128 => h (ix2 (i 0) k))
    (clampedDegree e (ix1 (i 0))) (fun k : Fin 128 => wl (ix2 k (i 1))) (fun k : Fin 128 => wr (ix2 k (i 1))) (bl (ix1 (i 1)))

/-- One layer on 256 input features. -/
def layer256 (h : FVec Ideal S50000x256 .f32) (e : IVec S2x600000 32) (wl wr : FVec Ideal S256x256 .f32)
    (bl : FVec Ideal S256 .f32) : FVec Ideal S50000x256 .f32 :=
  fun i => meanEntry (fun k : Fin 256 => neighbourSum256 h e (ix2 (i 0) k)) (fun k : Fin 256 => h (ix2 (i 0) k))
    (clampedDegree e (ix1 (i 0))) (fun k : Fin 256 => wl (ix2 k (i 1))) (fun k : Fin 256 => wr (ix2 k (i 1))) (bl (ix1 (i 1)))

/-- `max · 0`, entry by entry. -/
def relu (v : FVec Ideal S50000x256 .f32) : FVec Ideal S50000x256 .f32 := fun i => max (v i) 0

/-- THE NETWORK: three layers, `max · 0` after the first two. -/
def network (x : FVec Ideal S50000x128 .f32) (e : IVec S2x600000 32) (wl0 wr0 : FVec Ideal S128x256 .f32)
    (bl0 : FVec Ideal S256 .f32) (wl1 wr1 : FVec Ideal S256x256 .f32) (bl1 : FVec Ideal S256 .f32)
    (wl2 wr2 : FVec Ideal S256x256 .f32) (bl2 : FVec Ideal S256 .f32) : FVec Ideal S50000x256 .f32 :=
  layer256 (relu (layer256 (relu (layer128 x e wl0 wr0 bl0)) e wl1 wr1 bl1)) e wl2 wr2 bl2

/-- A layer's entry at node `r` and channel `c`, the index written by its two coordinates. -/
theorem layer128_apply (h : FVec Ideal S50000x128 .f32) (e : IVec S2x600000 32) (wl wr : FVec Ideal S128x256 .f32)
    (bl : FVec Ideal S256 .f32) (r : Fin 50000) (c : Fin 256) :
    layer128 h e wl wr bl (ix2 r c) = meanEntry (fun k : Fin 128 => neighbourSum128 h e (ix2 r k)) (fun k : Fin 128 => h (ix2 r k))
      (clampedDegree e (ix1 r)) (fun k : Fin 128 => wl (ix2 k c)) (fun k : Fin 128 => wr (ix2 k c)) (bl (ix1 c)) := rfl

/-- A layer's entry at node `r` and channel `c`, the index written by its two coordinates. -/
theorem layer256_apply (h : FVec Ideal S50000x256 .f32) (e : IVec S2x600000 32) (wl wr : FVec Ideal S256x256 .f32)
    (bl : FVec Ideal S256 .f32) (r : Fin 50000) (c : Fin 256) :
    layer256 h e wl wr bl (ix2 r c) = meanEntry (fun k : Fin 256 => neighbourSum256 h e (ix2 r k)) (fun k : Fin 256 => h (ix2 r k))
      (clampedDegree e (ix1 r)) (fun k : Fin 256 => wl (ix2 k c)) (fun k : Fin 256 => wr (ix2 k c)) (bl (ix1 c)) := rfl

end Cert.MeanLayer

end
-- ==== Proof.KernelSide.lean ====
/-
  What one launch of the kernel computes, as ONE function of the six arrays it is given.

  A launch takes the summed neighbour features `A0` (one row per node), the nodes' own features `A1`, a column `A2`
  holding each node's reciprocal clamped degree, the weights `A3` (for the neighbour mean) and `A5` (for the node itself)
  and the bias as a single row `A4`.  Entry `(i, j)` of its result is `MeanLayer.splitEntry` — the scaled row times a
  weight column in three passes, twice, plus the bias entry — of node `i`'s rows, its scale and channel `j`'s columns;
  the first two launches then take `max · 0`.  The column and the row are what the host operations before a launch make
  of the edge array and of the bias vector (`invDegCol`, `biasRow`).
-/
import proofs.«145860_j89996744720665_2_alg».proof.Proof.Spec

noncomputable section

namespace Cert.MeanLayer

open Idealize.ShloMosaic Idealize.ShloMosaic.ValueIdx Cert.KernelIdeal
open Cert.KernelIdeal.Facts₀ Cert.KernelIdeal.Facts

variable [Cert.KernelIdeal.Facts]

/-- Each node's `1 / max (degree) 1`, kept as a column. -/
def invDegCol (e : IVec S2x600000 32) : FVec Ideal S50000x1 .f32 :=
  broadcastInDim S50000x1 ![0] bcast_S50000_S50000x1_0
    (Host.divf (broadcastInDim S50000 ![] bcast_S_S50000 (constant (F := Ideal) S_ .f32 0x3F800000#32)) (clampedDegree e))

/-- The bias vector kept as a single row. -/
def biasRow (bl : FVec Ideal S256 .f32) : FVec Ideal S1x256 .f32 := shapeCast _ bl shapeCasts_S256_S1x256

/-- A launch on 128 input features, before the final `max · 0`. -/
def kernelLayer128 (A0 A1 : FVec Ideal S50000x128 .f32) (A2 : FVec Ideal S50000x1 .f32) (A3 : FVec Ideal S128x256 .f32)
    (A4 : FVec Ideal S1x256 .f32) (A5 : FVec Ideal S128x256 .f32) : FVec Ideal S50000x256 .f32 :=
  fun i => splitEntry (fun k : Fin 128 => A0 (ix2 (i 0) k)) (fun k : Fin 128 => A1 (ix2 (i 0) k)) (A2 (ix2 (i 0) (0 : Fin 1)))
    (fun k : Fin 128 => A3 (ix2 k (i 1))) (fun k : Fin 128 => A5 (ix2 k (i 1))) (A4 (ix2 (0 : Fin 1) (i 1)))

/-- A launch on 256 input features, before the final `max · 0`. -/
def kernelLayer256 (A0 A1 : FVec Ideal S50000x256 .f32) (A2 : FVec Ideal S50000x1 .f32) (A3 : FVec Ideal S256x256 .f32)
    (A4 : FVec Ideal S1x256 .f32) (A5 : FVec Ideal S256x256 .f32) : FVec Ideal S50000x256 .f32 :=
  fun i => splitEntry (fun k : Fin 256 => A0 (ix2 (i 0) k)) (fun k : Fin 256 => A1 (ix2 (i 0) k)) (A2 (ix2 (i 0) (0 : Fin 1)))
    (fun k : Fin 256 => A3 (ix2 k (i 1))) (fun k : Fin 256 => A5 (ix2 k (i 1))) (A4 (ix2 (0 : Fin 1) (i 1)))

/-- A launch's entry at node `r` and channel `c`, the index written by its two coordinates. -/
theorem kernelLayer128_apply (A0 A1 : FVec Ideal S50000x128 .f32) (A2 : FVec Ideal S50000x1 .f32) (A3 : FVec Ideal S128x256 .f32)
    (A4 : FVec Ideal S1x256 .f32) (A5 : FVec Ideal S128x256 .f32) (r : Fin 50000) (c : Fin 256) :
    kernelLayer128 A0 A1 A2 A3 A4 A5 (ix2 r c) = splitEntry (fun k : Fin 128 => A0 (ix2 r k)) (fun k : Fin 128 => A1 (ix2 r k))
      (A2 (ix2 r (0 : Fin 1))) (fun k : Fin 128 => A3 (ix2 k c)) (fun k : Fin 128 => A5 (ix2 k c)) (A4 (ix2 (0 : Fin 1) c)) := rfl

/-- A launch's entry at node `r` and channel `c`, the index written by its two coordinates. -/
theorem kernelLayer256_apply (A0 A1 : FVec Ideal S50000x256 .f32) (A2 : FVec Ideal S50000x1 .f32) (A3 : FVec Ideal S256x256 .f32)
    (A4 : FVec Ideal S1x256 .f32) (A5 : FVec Ideal S256x256 .f32) (r : Fin 50000) (c : Fin 256) :
    kernelLayer256 A0 A1 A2 A3 A4 A5 (ix2 r c) = splitEntry (fun k : Fin 256 => A0 (ix2 r k)) (fun k : Fin 256 => A1 (ix2 r k))
      (A2 (ix2 r (0 : Fin 1))) (fun k : Fin 256 => A3 (ix2 k c)) (fun k : Fin 256 => A5 (ix2 k c)) (A4 (ix2 (0 : Fin 1) c)) := rfl

end Cert.MeanLayer

end
-- ==== Proof.KernelBlocks.lean ====
/-
  From blocks to arrays: what a launch LEAVES in its output array.

  A launch runs its body at ten grid points.  Point `t` fetches rows `5000·t … 5000·t + 4999` of the two feature arrays
  and of the degree column, and the two weight matrices and the bias row whole; what it writes back is rows
  `5000·t … 5000·t + 4999` of the output.  Entry `(p, q)` of the block it writes is the kernel's arrangement of the entry
  (`KernelEntry`) of the fetched blocks, and row `p` of a fetched block is row `5000·t + p` of its array; so the block
  is block `t` of ONE whole-array function (`MeanLayer.kernelLayer…`, with `max · 0` in the first two launches) of the
  six input arrays as the launch finds them.  The ten blocks tile the 50000 rows — row `r` belongs to point `r / 5000` —,
  hence after the launch the output array IS that function of the input arrays.  Stated at any contents `V` of the
  buffers at the launch's entry.
-/
import proofs.«145860_j89996744720665_2_alg».proof.Proof.PatchedKernelIdealFrame
import proofs.«145860_j89996744720665_2_alg».proof.Proof.KernelEntry
import proofs.«145860_j89996744720665_2_alg».proof.Proof.KernelSide

set_option maxRecDepth 16384

noncomputable section

namespace Cert.KernelIdeal.Layers

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP Cert.MeanLayer

variable (V : (c : Dev nD) → (b : Ref sig .tc) → Buf (Elt Ideal) ((c : Thread nD τ).loc b))

/-- The offset `(0, 0)` is the zero function on the two axes. -/
theorem hz : (![0, 0] : Fin 2 → Nat) = fun _ => 0 := funext fun a => by fin_cases a <;> rfl

/-! ## Launch 0 -/

/-- The index maps of launch 0's seven windows, decided over its ten points: the three row-blocked inputs and the output sit at
    block `(t, 0)`, the weights and the bias row at block `(0, 0)`. -/
theorem idx0 : ∀ t : Fin cfg0.N,
    win0_0.index t (0 : Fin 2) = t.val ∧ win0_0.index t (1 : Fin 2) = 0
  ∧ win0_1.index t (0 : Fin 2) = t.val ∧ win0_1.index t (1 : Fin 2) = 0
  ∧ win0_2.index t (0 : Fin 2) = t.val ∧ win0_2.index t (1 : Fin 2) = 0
  ∧ win0_3.index t (0 : Fin 2) = 0 ∧ win0_3.index t (1 : Fin 2) = 0
  ∧ win0_4.index t (0 : Fin 2) = 0 ∧ win0_4.index t (1 : Fin 2) = 0
  ∧ win0_5.index t (0 : Fin 2) = 0 ∧ win0_5.index t (1 : Fin 2) = 0
  ∧ win0_6.index t (0 : Fin 2) = t.val ∧ win0_6.index t (1 : Fin 2) = 0 :=
  (by decide +kernel : ∀ t : Fin grid0.N, _)

/-- Every block row of the output is some point's. -/
theorem onto0 : ∀ q0 : Fin 10, ∃ t : Fin cfg0.N, win0_6.index t = ![q0.val, 0] :=
  (by decide +kernel : ∀ q0 : Fin 10, ∃ t : Fin grid0.N, win0_6.index t = ![q0.val, 0])

/-- WHAT POINT `t` WRITES BACK is block `t` of the whole-array function (the launch's layer followed by `max · 0`) of the
    six input arrays as the launch finds them. -/
theorem flushed0 (c : Dev nD) (t : Fin cfg0.N) :
    (dat0 V c).flushed 6 t = ((cfg0.win 6).blk t).view.read (Elt Ideal)
      (relu (kernelLayer128 (V c main_v22) (V c main_arg0) (V c main_v12) (V c main_arg2) (V c main_v23) (V c main_arg4))) := by
  show (cfg0.win 6).cut (grid0.coords t) ((dat0 V c).after 6 t) = _
  rw [after0_6]
  unfold out0_6
  rw [View.canon_unit_zero hz]
  simp only [View.ld_unit_zero (S := S5000x128) hz, View.ld_unit_zero (S := S5000x1) hz, View.ld_unit_zero (S := S128x256) hz,
    View.ld_unit_zero (S := S1x256) hz]
  obtain ⟨e00, e01, e10, e11, e20, e21, e30, e31, e40, e41, e50, e51, e60, e61⟩ := idx0 t
  funext j
  obtain ⟨p, q, rfl⟩ : ∃ (p : Fin 5000) (q : Fin 256), j = ix2 p q := ⟨j 0, j 1, eq_ix2 j⟩
  have ht : t.val < 10 := Nat.lt_of_lt_of_eq t.isLt N_0
  have hR : t.val * 5000 + p.val < 50000 := by have := p.isLt; omega
  let R : Fin 50000 := ⟨t.val * 5000 + p.val, hR⟩
  have h0 : ∀ k : Fin 128, iblk0 V c 0 t (ix2 p k) = V c main_v22 (ix2 R k) := fun k => by
    show V c main_v22 (((cfg0.win 0).blk t).view.emb (ix2 p k)) = V c main_v22 (ix2 R k)
    refine congrArg (V c main_v22) ?_
    funext a
    apply Fin.ext
    match a with
    | ⟨0, _⟩ => show win0_0.index t (0 : Fin 2) * 5000 + 1 * p.val = t.val * 5000 + p.val; rw [e00]; omega
    | ⟨1, _⟩ => show win0_0.index t (1 : Fin 2) * 128 + 1 * k.val = k.val; rw [e01]; omega
  have h1 : ∀ k : Fin 128, iblk0 V c 1 t (ix2 p k) = V c main_arg0 (ix2 R k) := fun k => by
    show V c main_arg0 (((cfg0.win 1).blk t).view.emb (ix2 p k)) = V c main_arg0 (ix2 R k)
    refine congrArg (V c main_arg0) ?_
    funext a
    apply Fin.ext
    match a with
    | ⟨0, _⟩ => show win0_1.index t (0 : Fin 2) * 5000 + 1 * p.val = t.val * 5000 + p.val; rw [e10]; omega
    | ⟨1, _⟩ => show win0_1.index t (1 : Fin 2) * 128 + 1 * k.val = k.val; rw [e11]; omega
  have h2 : iblk0 V c 2 t (ix2 p (0 : Fin 1)) = V c main_v12 (ix2 R (0 : Fin 1)) := by
    show V c main_v12 (((cfg0.win 2).blk t).view.emb (ix2 p (0 : Fin 1))) = V c main_v12 (ix2 R (0 : Fin 1))
    refine congrArg (V c main_v12) ?_
    funext a
    apply Fin.ext
    match a with
    | ⟨0, _⟩ => show win0_2.index t (0 : Fin 2) * 5000 + 1 * p.val = t.val * 5000 + p.val; rw [e20]; omega
    | ⟨1, _⟩ => show win0_2.index t (1 : Fin 2) * 1 + 1 * (0 : Fin 1).val = (0 : Fin 1).val; rw [e21]; omega
  have h3 : ∀ k : Fin 128, iblk0 V c 3 t (ix2 k q) = V c main_arg2 (ix2 k q) := fun k => by
    show V c main_arg2 (((cfg0.win 3).blk t).view.emb (ix2 k q)) = V c main_arg2 (ix2 k q)
    refine congrArg (V c main_arg2) ?_
    funext a
    apply Fin.ext
    match a with
    | ⟨0, _⟩ => show win0_3.index t (0 : Fin 2) * 128 + 1 * k.val = k.val; rw [e30]; omega
    | ⟨1, _⟩ => show win0_3.index t (1 : Fin 2) * 256 + 1 * q.val = q.val; rw [e31]; omega
  have h4 : iblk0 V c 4 t (ix2 (0 : Fin 1) q) = V c main_v23 (ix2 (0 : Fin 1) q) := by
    show V c main_v23 (((cfg0.win 4).blk t).view.emb (ix2 (0 : Fin 1) q)) = V c main_v23 (ix2 (0 : Fin 1) q)
    refine congrArg (V c main_v23) ?_
    funext a
    apply Fin.ext
    match a with
    | ⟨0, _⟩ => show win0_4.index t (0 : Fin 2) * 1 + 1 * (0 : Fin 1).val = (0 : Fin 1).val; rw [e40]; omega
    | ⟨1, _⟩ => show win0_4.index t (1 : Fin 2) * 256 + 1 * q.val = q.val; rw [e41]; omega
  have h5 : ∀ k : Fin 128, iblk0 V c 5 t (ix2 k q) = V c main_arg4 (ix2 k q) := fun k => by
    show V c main_arg4 (((cfg0.win 5).blk t).view.emb (ix2 k q)) = V c main_arg4 (ix2 k q)
    refine congrArg (V c main_arg4) ?_
    funext a
    apply Fin.ext
    match a with
    | ⟨0, _⟩ => show win0_5.index t (0 : Fin 2) * 128 + 1 * k.val = k.val; rw [e50]; omega
    | ⟨1, _⟩ => show win0_5.index t (1 : Fin 2) * 256 + 1 * q.val = q.val; rw [e51]; omega
  have h6 : ((cfg0.win 6).blk t).view.emb (ix2 p q) = (ix2 R q : S50000x256.Idx) := by
    funext a
    apply Fin.ext
    match a with
    | ⟨0, _⟩ => show win0_6.index t (0 : Fin 2) * 5000 + 1 * p.val = t.val * 5000 + p.val; rw [e60]; omega
    | ⟨1, _⟩ => show win0_6.index t (1 : Fin 2) * 256 + 1 * q.val = q.val; rw [e61]; omega
  show k0_pay1 (F := Ideal) (k0_pay2 (F := Ideal) (iblk0 V c 0 t) (iblk0 V c 2 t) (iblk0 V c 1 t) (iblk0 V c 3 t) (iblk0 V c 5 t) (iblk0 V c 4 t)) (Scalar.ofBits .f32 0x00000000#32) (ix2 p q)
      = (relu (kernelLayer128 (V c main_v22) (V c main_arg0) (V c main_v12) (V c main_arg2) (V c main_v23) (V c main_arg4))) (((cfg0.win 6).blk t).view.emb (ix2 p q))
  rw [h6]
  show _ = max (kernelLayer128 (V c main_v22) (V c main_arg0) (V c main_v12) (V c main_arg2) (V c main_v23) (V c main_arg4) (ix2 R q)) 0
  rw [kernelLayer128_apply]
  refine (stored0 (iblk0 V c 0 t) (iblk0 V c 1 t) (iblk0 V c 2 t) (iblk0 V c 3 t) (iblk0 V c 5 t) (iblk0 V c 4 t) p q).trans ?_
  simp only [h0, h1, h2, h3, h4, h5]

/-- An index of the output array is in point `t`'s block iff each coordinate is in the block's range on its axis. -/
theorem mem_blk0 (t : Fin cfg0.N) (i : S50000x256.Idx) :
    i ∈ ((cfg0.win 6).blk t).view.set ↔ ∀ a : Fin 2, win0_6.index t a * S5000x256.size a ≤ (i a).val
      ∧ (i a).val < win0_6.index t a * S5000x256.size a + S5000x256.size a := by
  show i ∈ ((View.whole main_v24).slice (win0_6.rect t)).set ↔ _
  rw [View.set_slice_whole, Rect.mem_set_unit]
  exact Iff.rfl

/-- The ten blocks cover the output array: row `r` is in the block of point `r / 5000`. -/
theorem cover0 (i : S50000x256.Idx) :
    ∃ t : Fin cfg0.N, (cfg0.win 6).flush t = true ∧ i ∈ ((cfg0.win 6).blk t).view.set := by
  have hi0 : (i 0).val < 50000 := (i 0).isLt
  have hi1 : (i 1).val < 256 := (i 1).isLt
  obtain ⟨t, ht⟩ := onto0 ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_blk0]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 256 ≤ (i 1).val ∧ (i 1).val < win0_6.index t (1 : Fin 2) * 256 + 256; omega

/-- THE OUTPUT ARRAY after launch 0: the launch's layer followed by `max · 0`, of the six input arrays as the launch finds them. -/
theorem final0 (c : Dev nD) :
    (dat0 V c).arrAt 6 cfg0.N = (relu (kernelLayer128 (V c main_v22) (V c main_arg0) (V c main_v12) (V c main_arg2) (V c main_v23) (V c main_arg4))) :=
  (dat0 V c).arrAt_eq_of_cover 6 _ (fun t _ => flushed0 V c t) cover0

/-! ## Launch 1 -/

/-- The index maps of launch 1's seven windows, decided over its ten points: the three row-blocked inputs and the output sit at
    block `(t, 0)`, the weights and the bias row at block `(0, 0)`. -/
theorem idx1 : ∀ t : Fin cfg1.N,
    win1_0.index t (0 : Fin 2) = t.val ∧ win1_0.index t (1 : Fin 2) = 0
  ∧ win1_1.index t (0 : Fin 2) = t.val ∧ win1_1.index t (1 : Fin 2) = 0
  ∧ win1_2.index t (0 : Fin 2) = t.val ∧ win1_2.index t (1 : Fin 2) = 0
  ∧ win1_3.index t (0 : Fin 2) = 0 ∧ win1_3.index t (1 : Fin 2) = 0
  ∧ win1_4.index t (0 : Fin 2) = 0 ∧ win1_4.index t (1 : Fin 2) = 0
  ∧ win1_5.index t (0 : Fin 2) = 0 ∧ win1_5.index t (1 : Fin 2) = 0
  ∧ win1_6.index t (0 : Fin 2) = t.val ∧ win1_6.index t (1 : Fin 2) = 0 :=
  (by decide +kernel : ∀ t : Fin grid1.N, _)

/-- Every block row of the output is some point's. -/
theorem onto1 : ∀ q0 : Fin 10, ∃ t : Fin cfg1.N, win1_6.index t = ![q0.val, 0] :=
  (by decide +kernel : ∀ q0 : Fin 10, ∃ t : Fin grid1.N, win1_6.index t = ![q0.val, 0])

/-- WHAT POINT `t` WRITES BACK is block `t` of the whole-array function (the launch's layer followed by `max · 0`) of the
    six input arrays as the launch finds them. -/
theorem flushed1 (c : Dev nD) (t : Fin cfg1.N) :
    (dat1 V c).flushed 6 t = ((cfg1.win 6).blk t).view.read (Elt Ideal)
      (relu (kernelLayer256 (V c main_v34) (V c main_v24) (V c main_v12) (V c main_arg5) (V c main_v35) (V c main_arg7))) := by
  show (cfg1.win 6).cut (grid1.coords t) ((dat1 V c).after 6 t) = _
  rw [after1_6]
  unfold out1_6
  rw [View.canon_unit_zero hz]
  simp only [View.ld_unit_zero (S := S5000x256) hz, View.ld_unit_zero (S := S5000x1) hz, View.ld_unit_zero (S := S256x256) hz,
    View.ld_unit_zero (S := S1x256) hz]
  obtain ⟨e00, e01, e10, e11, e20, e21, e30, e31, e40, e41, e50, e51, e60, e61⟩ := idx1 t
  funext j
  obtain ⟨p, q, rfl⟩ : ∃ (p : Fin 5000) (q : Fin 256), j = ix2 p q := ⟨j 0, j 1, eq_ix2 j⟩
  have ht : t.val < 10 := Nat.lt_of_lt_of_eq t.isLt N_1
  have hR : t.val * 5000 + p.val < 50000 := by have := p.isLt; omega
  let R : Fin 50000 := ⟨t.val * 5000 + p.val, hR⟩
  have h0 : ∀ k : Fin 256, iblk1 V c 0 t (ix2 p k) = V c main_v34 (ix2 R k) := fun k => by
    show V c main_v34 (((cfg1.win 0).blk t).view.emb (ix2 p k)) = V c main_v34 (ix2 R k)
    refine congrArg (V c main_v34) ?_
    funext a
    apply Fin.ext
    match a with
    | ⟨0, _⟩ => show win1_0.index t (0 : Fin 2) * 5000 + 1 * p.val = t.val * 5000 + p.val; rw [e00]; omega
    | ⟨1, _⟩ => show win1_0.index t (1 : Fin 2) * 256 + 1 * k.val = k.val; rw [e01]; omega
  have h1 : ∀ k : Fin 256, iblk1 V c 1 t (ix2 p k) = V c main_v24 (ix2 R k) := fun k => by
    show V c main_v24 (((cfg1.win 1).blk t).view.emb (ix2 p k)) = V c main_v24 (ix2 R k)
    refine congrArg (V c main_v24) ?_
    funext a
    apply Fin.ext
    match a with
    | ⟨0, _⟩ => show win1_1.index t (0 : Fin 2) * 5000 + 1 * p.val = t.val * 5000 + p.val; rw [e10]; omega
    | ⟨1, _⟩ => show win1_1.index t (1 : Fin 2) * 256 + 1 * k.val = k.val; rw [e11]; omega
  have h2 : iblk1 V c 2 t (ix2 p (0 : Fin 1)) = V c main_v12 (ix2 R (0 : Fin 1)) := by
    show V c main_v12 (((cfg1.win 2).blk t).view.emb (ix2 p (0 : Fin 1))) = V c main_v12 (ix2 R (0 : Fin 1))
    refine congrArg (V c main_v12) ?_
    funext a
    apply Fin.ext
    match a with
    | ⟨0, _⟩ => show win1_2.index t (0 : Fin 2) * 5000 + 1 * p.val = t.val * 5000 + p.val; rw [e20]; omega
    | ⟨1, _⟩ => show win1_2.index t (1 : Fin 2) * 1 + 1 * (0 : Fin 1).val = (0 : Fin 1).val; rw [e21]; omega
  have h3 : ∀ k : Fin 256, iblk1 V c 3 t (ix2 k q) = V c main_arg5 (ix2 k q) := fun k => by
    show V c main_arg5 (((cfg1.win 3).blk t).view.emb (ix2 k q)) = V c main_arg5 (ix2 k q)
    refine congrArg (V c main_arg5) ?_
    funext a
    apply Fin.ext
    match a with
    | ⟨0, _⟩ => show win1_3.index t (0 : Fin 2) * 256 + 1 * k.val = k.val; rw [e30]; omega
    | ⟨1, _⟩ => show win1_3.index t (1 : Fin 2) * 256 + 1 * q.val = q.val; rw [e31]; omega
  have h4 : iblk1 V c 4 t (ix2 (0 : Fin 1) q) = V c main_v35 (ix2 (0 : Fin 1) q) := by
    show V c main_v35 (((cfg1.win 4).blk t).view.emb (ix2 (0 : Fin 1) q)) = V c main_v35 (ix2 (0 : Fin 1) q)
    refine congrArg (V c main_v35) ?_
    funext a
    apply Fin.ext
    match a with
    | ⟨0, _⟩ => show win1_4.index t (0 : Fin 2) * 1 + 1 * (0 : Fin 1).val = (0 : Fin 1).val; rw [e40]; omega
    | ⟨1, _⟩ => show win1_4.index t (1 : Fin 2) * 256 + 1 * q.val = q.val; rw [e41]; omega
  have h5 : ∀ k : Fin 256, iblk1 V c 5 t (ix2 k q) = V c main_arg7 (ix2 k q) := fun k => by
    show V c main_arg7 (((cfg1.win 5).blk t).view.emb (ix2 k q)) = V c main_arg7 (ix2 k q)
    refine congrArg (V c main_arg7) ?_
    funext a
    apply Fin.ext
    match a with
    | ⟨0, _⟩ => show win1_5.index t (0 : Fin 2) * 256 + 1 * k.val = k.val; rw [e50]; omega
    | ⟨1, _⟩ => show win1_5.index t (1 : Fin 2) * 256 + 1 * q.val = q.val; rw [e51]; omega
  have h6 : ((cfg1.win 6).blk t).view.emb (ix2 p q) = (ix2 R q : S50000x256.Idx) := by
    funext a
    apply Fin.ext
    match a with
    | ⟨0, _⟩ => show win1_6.index t (0 : Fin 2) * 5000 + 1 * p.val = t.val * 5000 + p.val; rw [e60]; omega
    | ⟨1, _⟩ => show win1_6.index t (1 : Fin 2) * 256 + 1 * q.val = q.val; rw [e61]; omega
  show k1_pay1 (F := Ideal) (k1_pay2 (F := Ideal) (iblk1 V c 0 t) (iblk1 V c 2 t) (iblk1 V c 1 t) (iblk1 V c 3 t) (iblk1 V c 5 t) (iblk1 V c 4 t)) (ix2 p q)
      = (relu (kernelLayer256 (V c main_v34) (V c main_v24) (V c main_v12) (V c main_arg5) (V c main_v35) (V c main_arg7))) (((cfg1.win 6).blk t).view.emb (ix2 p q))
  rw [h6]
  show _ = max (kernelLayer256 (V c main_v34) (V c main_v24) (V c main_v12) (V c main_arg5) (V c main_v35) (V c main_arg7) (ix2 R q)) 0
  rw [kernelLayer256_apply]
  refine (stored1 (iblk1 V c 0 t) (iblk1 V c 1 t) (iblk1 V c 2 t) (iblk1 V c 3 t) (iblk1 V c 5 t) (iblk1 V c 4 t) p q).trans ?_
  simp only [h0, h1, h2, h3, h4, h5]

/-- An index of the output array is in point `t`'s block iff each coordinate is in the block's range on its axis. -/
theorem mem_blk1 (t : Fin cfg1.N) (i : S50000x256.Idx) :
    i ∈ ((cfg1.win 6).blk t).view.set ↔ ∀ a : Fin 2, win1_6.index t a * S5000x256.size a ≤ (i a).val
      ∧ (i a).val < win1_6.index t a * S5000x256.size a + S5000x256.size a := by
  show i ∈ ((View.whole main_v36).slice (win1_6.rect t)).set ↔ _
  rw [View.set_slice_whole, Rect.mem_set_unit]
  exact Iff.rfl

/-- The ten blocks cover the output array: row `r` is in the block of point `r / 5000`. -/
theorem cover1 (i : S50000x256.Idx) :
    ∃ t : Fin cfg1.N, (cfg1.win 6).flush t = true ∧ i ∈ ((cfg1.win 6).blk t).view.set := by
  have hi0 : (i 0).val < 50000 := (i 0).isLt
  have hi1 : (i 1).val < 256 := (i 1).isLt
  obtain ⟨t, ht⟩ := onto1 ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk1]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 256 ≤ (i 1).val ∧ (i 1).val < win1_6.index t (1 : Fin 2) * 256 + 256; omega

/-- THE OUTPUT ARRAY after launch 1: the launch's layer followed by `max · 0`, of the six input arrays as the launch finds them. -/
theorem final1 (c : Dev nD) :
    (dat1 V c).arrAt 6 cfg1.N = (relu (kernelLayer256 (V c main_v34) (V c main_v24) (V c main_v12) (V c main_arg5) (V c main_v35) (V c main_arg7))) :=
  (dat1 V c).arrAt_eq_of_cover 6 _ (fun t _ => flushed1 V c t) cover1

/-! ## Launch 2 -/

/-- The index maps of launch 2's seven windows, decided over its ten points: the three row-blocked inputs and the output sit at
    block `(t, 0)`, the weights and the bias row at block `(0, 0)`. -/
theorem idx2 : ∀ t : Fin cfg2.N,
    win2_0.index t (0 : Fin 2) = t.val ∧ win2_0.index t (1 : Fin 2) = 0
  ∧ win2_1.index t (0 : Fin 2) = t.val ∧ win2_1.index t (1 : Fin 2) = 0
  ∧ win2_2.index t (0 : Fin 2) = t.val ∧ win2_2.index t (1 : Fin 2) = 0
  ∧ win2_3.index t (0 : Fin 2) = 0 ∧ win2_3.index t (1 : Fin 2) = 0
  ∧ win2_4.index t (0 : Fin 2) = 0 ∧ win2_4.index t (1 : Fin 2) = 0
  ∧ win2_5.index t (0 : Fin 2) = 0 ∧ win2_5.index t (1 : Fin 2) = 0
  ∧ win2_6.index t (0 : Fin 2) = t.val ∧ win2_6.index t (1 : Fin 2) = 0 :=
  (by decide +kernel : ∀ t : Fin grid2.N, _)

/-- Every block row of the output is some point's. -/
theorem onto2 : ∀ q0 : Fin 10, ∃ t : Fin cfg2.N, win2_6.index t = ![q0.val, 0] :=
  (by decide +kernel : ∀ q0 : Fin 10, ∃ t : Fin grid2.N, win2_6.index t = ![q0.val, 0])

/-- WHAT POINT `t` WRITES BACK is block `t` of the whole-array function (the launch's layer, no maximum) of the six input
    arrays as the launch finds them. -/
theorem flushed2 (c : Dev nD) (t : Fin cfg2.N) :
    (dat2 V c).flushed 6 t = ((cfg2.win 6).blk t).view.read (Elt Ideal)
      (kernelLayer256 (V c main_v46) (V c main_v36) (V c main_v12) (V c main_arg8) (V c main_v47) (V c main_arg10)) := by
  show (cfg2.win 6).cut (grid2.coords t) ((dat2 V c).after 6 t) = _
  rw [after2_6]
  unfold out2_6
  rw [View.canon_unit_zero hz]
  simp only [View.ld_unit_zero (S := S5000x256) hz, View.ld_unit_zero (S := S5000x1) hz, View.ld_unit_zero (S := S256x256) hz,
    View.ld_unit_zero (S := S1x256) hz]
  obtain ⟨e00, e01, e10, e11, e20, e21, e30, e31, e40, e41, e50, e51, e60, e61⟩ := idx2 t
  funext j
  obtain ⟨p, q, rfl⟩ : ∃ (p : Fin 5000) (q : Fin 256), j = ix2 p q := ⟨j 0, j 1, eq_ix2 j⟩
  have ht : t.val < 10 := Nat.lt_of_lt_of_eq t.isLt N_2
  have hR : t.val * 5000 + p.val < 50000 := by have := p.isLt; omega
  let R : Fin 50000 := ⟨t.val * 5000 + p.val, hR⟩
  have h0 : ∀ k : Fin 256, iblk2 V c 0 t (ix2 p k) = V c main_v46 (ix2 R k) := fun k => by
    show V c main_v46 (((cfg2.win 0).blk t).view.emb (ix2 p k)) = V c main_v46 (ix2 R k)
    refine congrArg (V c main_v46) ?_
    funext a
    apply Fin.ext
    match a with
    | ⟨0, _⟩ => show win2_0.index t (0 : Fin 2) * 5000 + 1 * p.val = t.val * 5000 + p.val; rw [e00]; omega
    | ⟨1, _⟩ => show win2_0.index t (1 : Fin 2) * 256 + 1 * k.val = k.val; rw [e01]; omega
  have h1 : ∀ k : Fin 256, iblk2 V c 1 t (ix2 p k) = V c main_v36 (ix2 R k) := fun k => by
    show V c main_v36 (((cfg2.win 1).blk t).view.emb (ix2 p k)) = V c main_v36 (ix2 R k)
    refine congrArg (V c main_v36) ?_
    funext a
    apply Fin.ext
    match a with
    | ⟨0, _⟩ => show win2_1.index t (0 : Fin 2) * 5000 + 1 * p.val = t.val * 5000 + p.val; rw [e10]; omega
    | ⟨1, _⟩ => show win2_1.index t (1 : Fin 2) * 256 + 1 * k.val = k.val; rw [e11]; omega
  have h2 : iblk2 V c 2 t (ix2 p (0 : Fin 1)) = V c main_v12 (ix2 R (0 : Fin 1)) := by
    show V c main_v12 (((cfg2.win 2).blk t).view.emb (ix2 p (0 : Fin 1))) = V c main_v12 (ix2 R (0 : Fin 1))
    refine congrArg (V c main_v12) ?_
    funext a
    apply Fin.ext
    match a with
    | ⟨0, _⟩ => show win2_2.index t (0 : Fin 2) * 5000 + 1 * p.val = t.val * 5000 + p.val; rw [e20]; omega
    | ⟨1, _⟩ => show win2_2.index t (1 : Fin 2) * 1 + 1 * (0 : Fin 1).val = (0 : Fin 1).val; rw [e21]; omega
  have h3 : ∀ k : Fin 256, iblk2 V c 3 t (ix2 k q) = V c main_arg8 (ix2 k q) := fun k => by
    show V c main_arg8 (((cfg2.win 3).blk t).view.emb (ix2 k q)) = V c main_arg8 (ix2 k q)
    refine congrArg (V c main_arg8) ?_
    funext a
    apply Fin.ext
    match a with
    | ⟨0, _⟩ => show win2_3.index t (0 : Fin 2) * 256 + 1 * k.val = k.val; rw [e30]; omega
    | ⟨1, _⟩ => show win2_3.index t (1 : Fin 2) * 256 + 1 * q.val = q.val; rw [e31]; omega
  have h4 : iblk2 V c 4 t (ix2 (0 : Fin 1) q) = V c main_v47 (ix2 (0 : Fin 1) q) := by
    show V c main_v47 (((cfg2.win 4).blk t).view.emb (ix2 (0 : Fin 1) q)) = V c main_v47 (ix2 (0 : Fin 1) q)
    refine congrArg (V c main_v47) ?_
    funext a
    apply Fin.ext
    match a with
    | ⟨0, _⟩ => show win2_4.index t (0 : Fin 2) * 1 + 1 * (0 : Fin 1).val = (0 : Fin 1).val; rw [e40]; omega
    | ⟨1, _⟩ => show win2_4.index t (1 : Fin 2) * 256 + 1 * q.val = q.val; rw [e41]; omega
  have h5 : ∀ k : Fin 256, iblk2 V c 5 t (ix2 k q) = V c main_arg10 (ix2 k q) := fun k => by
    show V c main_arg10 (((cfg2.win 5).blk t).view.emb (ix2 k q)) = V c main_arg10 (ix2 k q)
    refine congrArg (V c main_arg10) ?_
    funext a
    apply Fin.ext
    match a with
    | ⟨0, _⟩ => show win2_5.index t (0 : Fin 2) * 256 + 1 * k.val = k.val; rw [e50]; omega
    | ⟨1, _⟩ => show win2_5.index t (1 : Fin 2) * 256 + 1 * q.val = q.val; rw [e51]; omega
  have h6 : ((cfg2.win 6).blk t).view.emb (ix2 p q) = (ix2 R q : S50000x256.Idx) := by
    funext a
    apply Fin.ext
    match a with
    | ⟨0, _⟩ => show win2_6.index t (0 : Fin 2) * 5000 + 1 * p.val = t.val * 5000 + p.val; rw [e60]; omega
    | ⟨1, _⟩ => show win2_6.index t (1 : Fin 2) * 256 + 1 * q.val = q.val; rw [e61]; omega
  show k2_pay1 (F := Ideal) (iblk2 V c 0 t) (iblk2 V c 2 t) (iblk2 V c 1 t) (iblk2 V c 3 t) (iblk2 V c 5 t) (iblk2 V c 4 t) (ix2 p q)
      = (kernelLayer256 (V c main_v46) (V c main_v36) (V c main_v12) (V c main_arg8) (V c main_v47) (V c main_arg10)) (((cfg2.win 6).blk t).view.emb (ix2 p q))
  rw [h6]
  show _ = kernelLayer256 (V c main_v46) (V c main_v36) (V c main_v12) (V c main_arg8) (V c main_v47) (V c main_arg10) (ix2 R q)
  rw [kernelLayer256_apply]
  refine (entry2 (iblk2 V c 0 t) (iblk2 V c 1 t) (iblk2 V c 2 t) (iblk2 V c 3 t) (iblk2 V c 5 t) (iblk2 V c 4 t) p q).trans ?_
  simp only [h0, h1, h2, h3, h4, h5]

/-- An index of the output array is in point `t`'s block iff each coordinate is in the block's range on its axis. -/
theorem mem_blk2 (t : Fin cfg2.N) (i : S50000x256.Idx) :
    i ∈ ((cfg2.win 6).blk t).view.set ↔ ∀ a : Fin 2, win2_6.index t a * S5000x256.size a ≤ (i a).val
      ∧ (i a).val < win2_6.index t a * S5000x256.size a + S5000x256.size a := by
  show i ∈ ((View.whole main_v48).slice (win2_6.rect t)).set ↔ _
  rw [View.set_slice_whole, Rect.mem_set_unit]
  exact Iff.rfl

/-- The ten blocks cover the output array: row `r` is in the block of point `r / 5000`. -/
theorem cover2 (i : S50000x256.Idx) :
    ∃ t : Fin cfg2.N, (cfg2.win 6).flush t = true ∧ i ∈ ((cfg2.win 6).blk t).view.set := by
  have hi0 : (i 0).val < 50000 := (i 0).isLt
  have hi1 : (i 1).val < 256 := (i 1).isLt
  obtain ⟨t, ht⟩ := onto2 ⟨(i 0).val / 5000, by omega⟩
  have q0 : win2_6.index t (0 : Fin 2) = (i 0).val / 5000 := congrFun ht 0
  have q1 : win2_6.index t (1 : Fin 2) = 0 := congrFun ht 1
  refine ⟨t, flush2_6 t, ?_⟩
  rw [mem_blk2]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 256 ≤ (i 1).val ∧ (i 1).val < win2_6.index t (1 : Fin 2) * 256 + 256; omega

/-- THE OUTPUT ARRAY after launch 2: the launch's layer (no maximum) of the six input arrays as the launch finds them. -/
theorem final2 (c : Dev nD) :
    (dat2 V c).arrAt 6 cfg2.N = (kernelLayer256 (V c main_v46) (V c main_v36) (V c main_v12) (V c main_arg8) (V c main_v47) (V c main_arg10)) :=
  (dat2 V c).arrAt_eq_of_cover 6 _ (fun t _ => flushed2 V c t) cover2

end Cert.KernelIdeal.Layers

end
-- ==== Proof.KernelArrays.lean ====
/-
  What each launch is GIVEN: the six input arrays of every launch as functions of the argument arrays.

  Between the launches the program only applies host operations, so the contents of a launch's input buffers are read
  off the fold of those operations: the first launch gets the neighbour sums of the input features, the features
  themselves, the column of reciprocal clamped degrees, and the first layer's weights and bias row; the second and third
  launches get the same of the PREVIOUS launch's output array (`H0`, `H1`: whatever that launch's write-backs left), the
  same degree column — it is computed once, before the first launch, and no launch or host operation writes it again —
  and their own layer's weights and bias row.  The edge array is read twice, as the row of sources and the row of
  destinations, before the first launch; the later gathers and scatters read those two rows again.  Of a layer's two
  weight matrices the LEFT one multiplies the neighbour mean and the RIGHT one the node's own features.
-/
import proofs.«145860_j89996744720665_2_alg».proof.Proof.PatchedKernelIdealFrame
import proofs.«145860_j89996744720665_2_alg».proof.Proof.KernelSide

set_option maxRecDepth 16384

noncomputable section

namespace Cert.KernelIdeal.Layers

open Idealize.ShloMosaic Idealize.ShloMosaic.TcCoe Idealize.SL.Sem Idealize.ShloMosaic.StableHlo
open Idealize.ShloMosaic.Pipeline (Dat Cfg Window)
open Cert.KernelIdeal Cert.KernelIdeal.Gen Cert.KernelIdeal.GenP Cert.MeanLayer

variable (m : (ℓ : Loc nD τ sig) → Buf (Elt Ideal) ℓ) (ρ : Dev nD → PrngReg)

/-- The edges' sources, as a row. -/
def srcRow (e : IVec S2x600000 32) : IVec S600000 32 :=
  shapeCast _ (extractStridedSlice S1x600000 ![0, 0] e slices_S2x600000_S1x600000_0_0) shapeCasts_S1x600000_S600000

/-- The edges' destinations, as a row. -/
def dstRow (e : IVec S2x600000 32) : IVec S600000 32 :=
  shapeCast _ (extractStridedSlice S1x600000 ![1, 0] e slices_S2x600000_S1x600000_1_0) shapeCasts_S1x600000_S600000

/-- The first launch's output array after its write-backs. -/
abbrev H0 (c : Dev nD) : FVec Ideal S50000x256 .f32 := (dat0 (V1 m ρ) c).arrAt 6 cfg0.N
/-- The second launch's output array after its write-backs. -/
abbrev H1 (c : Dev nD) : FVec Ideal S50000x256 .f32 := (dat1 (V3 m ρ) c).arrAt 6 cfg1.N

/-! ## Before the first launch -/

/-- Before the first launch the row of sources is the edge array's first row. -/
theorem W1_v1 (c : Dev nD) : W1 m ρ c (Proc.devRef .tc main_v1) = srcRow (m ((c : Thread nD τ).loc main_arg1)) := by
  show StableHlo.after hostOps0 (W0 m ρ c) (Proc.devRef .tc main_v1) = _
  after_results_simp
  rfl

/-- Before the first launch the row of destinations is the edge array's second row. -/
theorem W1_v3 (c : Dev nD) : W1 m ρ c (Proc.devRef .tc main_v3) = dstRow (m ((c : Thread nD τ).loc main_arg1)) := by
  show StableHlo.after hostOps0 (W0 m ρ c) (Proc.devRef .tc main_v3) = _
  after_results_simp
  rfl

/-- The first launch's neighbour-sum input is the neighbour sum of the input features. -/
theorem V1_v22 (c : Dev nD) :
    V1 m ρ c main_v22 = neighbourSum128 (m ((c : Thread nD τ).loc main_arg0)) (m ((c : Thread nD τ).loc main_arg1)) := by
  show StableHlo.after hostOps0 (W0 m ρ c) (Proc.devRef .tc main_v22) = _
  after_results_simp
  rfl

/-- The first launch's own-feature input is the input features. -/
theorem V1_arg0 (c : Dev nD) : V1 m ρ c main_arg0 = m ((c : Thread nD τ).loc main_arg0) := by
  show StableHlo.after hostOps0 (W0 m ρ c) (Proc.devRef .tc main_arg0) = _
  after_results_simp

/-- The first launch's scale column is the column of reciprocal clamped degrees. -/
theorem V1_v12 (c : Dev nD) : V1 m ρ c main_v12 = invDegCol (m ((c : Thread nD τ).loc main_arg1)) := by
  show StableHlo.after hostOps0 (W0 m ρ c) (Proc.devRef .tc main_v12) = _
  after_results_simp
  rfl

/-- The first launch's left weights are argument 2. -/
theorem V1_arg2 (c : Dev nD) : V1 m ρ c main_arg2 = m ((c : Thread nD τ).loc main_arg2) := by
  show StableHlo.after hostOps0 (W0 m ρ c) (Proc.devRef .tc main_arg2) = _
  after_results_simp

/-- The first launch's bias row is argument 3 as a row. -/
theorem V1_v23 (c : Dev nD) : V1 m ρ c main_v23 = biasRow (m ((c : Thread nD τ).loc main_arg3)) := by
  show StableHlo.after hostOps0 (W0 m ρ c) (Proc.devRef .tc main_v23) = _
  after_results_simp
  rfl

/-- The first launch's right weights are argument 4. -/
theorem V1_arg4 (c : Dev nD) : V1 m ρ c main_arg4 = m ((c : Thread nD τ).loc main_arg4) := by
  show StableHlo.after hostOps0 (W0 m ρ c) (Proc.devRef .tc main_arg4) = _
  after_results_simp

/-! ## Between the first and the second launch -/

/-- The first launch's output buffer holds what its write-backs left. -/
theorem W2_v24 (c : Dev nD) : W2 m ρ c (Proc.devRef .tc main_v24) = H0 m ρ c := W2_arr m ρ c 6

/-- The first launch leaves the row of sources as it was. -/
theorem W2_v1 (c : Dev nD) : W2 m ρ c (Proc.devRef .tc main_v1) = srcRow (m ((c : Thread nD τ).loc main_arg1)) :=
  (W2_of_ne m ρ c main_v1 (by decide)).trans (W1_v1 m ρ c)

/-- The first launch leaves the row of destinations as it was. -/
theorem W2_v3 (c : Dev nD) : W2 m ρ c (Proc.devRef .tc main_v3) = dstRow (m ((c : Thread nD τ).loc main_arg1)) :=
  (W2_of_ne m ρ c main_v3 (by decide)).trans (W1_v3 m ρ c)

/-- The degree column is an input window of the first launch: it comes out as it went in. -/
theorem W2_v12 (c : Dev nD) : W2 m ρ c (Proc.devRef .tc main_v12) = invDegCol (m ((c : Thread nD τ).loc main_arg1)) :=
  (W2_arr m ρ c 2).trans (((dat0 (V1 m ρ) c).arrAt_in 2 rfl _).trans ((A_eq0 (V1 m ρ) c 2).trans (V1_v12 m ρ c)))

/-- Argument 5 is untouched by the host operations before the first launch and by the first launch. -/
theorem W2_arg5 (c : Dev nD) : W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  after_results_simp

/-- Argument 6 is untouched by the host operations before the first launch and by the first launch. -/
theorem W2_arg6 (c : Dev nD) : W2 m ρ c (Proc.devRef .tc main_arg6) = m ((c : Thread nD τ).loc main_arg6) := by
  refine (W2_of_ne m ρ c main_arg6 (by decide)).trans ?_
  show StableHlo.after hostOps0 (W0 m ρ c) (Proc.devRef .tc main_arg6) = _
  after_results_simp

/-- Argument 7 is untouched by the host operations before the first launch and by the first launch. -/
theorem W2_arg7 (c : Dev nD) : W2 m ρ c (Proc.devRef .tc main_arg7) = m ((c : Thread nD τ).loc main_arg7) := by
  refine (W2_of_ne m ρ c main_arg7 (by decide)).trans ?_
  show StableHlo.after hostOps0 (W0 m ρ c) (Proc.devRef .tc main_arg7) = _
  after_results_simp

/-- Argument 8 is untouched by the host operations before the first launch and by the first launch. -/
theorem W2_arg8 (c : Dev nD) : W2 m ρ c (Proc.devRef .tc main_arg8) = m ((c : Thread nD τ).loc main_arg8) := by
  refine (W2_of_ne m ρ c main_arg8 (by decide)).trans ?_
  show StableHlo.after hostOps0 (W0 m ρ c) (Proc.devRef .tc main_arg8) = _
  after_results_simp

/-- Argument 9 is untouched by the host operations before the first launch and by the first launch. -/
theorem W2_arg9 (c : Dev nD) : W2 m ρ c (Proc.devRef .tc main_arg9) = m ((c : Thread nD τ).loc main_arg9) := by
  refine (W2_of_ne m ρ c main_arg9 (by decide)).trans ?_
  show StableHlo.after hostOps0 (W0 m ρ c) (Proc.devRef .tc main_arg9) = _
  after_results_simp

/-- Argument 10 is untouched by the host operations before the first launch and by the first launch. -/
theorem W2_arg10 (c : Dev nD) : W2 m ρ c (Proc.devRef .tc main_arg10) = m ((c : Thread nD τ).loc main_arg10) := by
  refine (W2_of_ne m ρ c main_arg10 (by decide)).trans ?_
  show StableHlo.after hostOps0 (W0 m ρ c) (Proc.devRef .tc main_arg10) = _
  after_results_simp

/-- The second launch's neighbour-sum input is the neighbour sum of the first launch's output. -/
theorem V3_v34 (c : Dev nD) : V3 m ρ c main_v34 = neighbourSum256 (H0 m ρ c) (m ((c : Thread nD τ).loc main_arg1)) := by
  show StableHlo.after hostOps1 (W2 m ρ c) (Proc.devRef .tc main_v34) = _
  after_results_simp
  rw [W2_v24, W2_v1, W2_v3]
  rfl

/-- The second launch's own-feature input is the first launch's output. -/
theorem V3_v24 (c : Dev nD) : V3 m ρ c main_v24 = H0 m ρ c := by
  show StableHlo.after hostOps1 (W2 m ρ c) (Proc.devRef .tc main_v24) = _
  after_results_simp
  exact W2_v24 m ρ c

/-- The second launch's scale column is the same column of reciprocal clamped degrees. -/
theorem V3_v12 (c : Dev nD) : V3 m ρ c main_v12 = invDegCol (m ((c : Thread nD τ).loc main_arg1)) := by
  show StableHlo.after hostOps1 (W2 m ρ c) (Proc.devRef .tc main_v12) = _
  after_results_simp
  exact W2_v12 m ρ c

/-- The second launch's left weights are argument 5. -/
theorem V3_arg5 (c : Dev nD) : V3 m ρ c main_arg5 = m ((c : Thread nD τ).loc main_arg5) := by
  show StableHlo.after hostOps1 (W2 m ρ c) (Proc.devRef .tc main_arg5) = _
  after_results_simp
  exact W2_arg5 m ρ c

/-- The second launch's bias row is argument 6 as a row. -/
theorem V3_v35 (c : Dev nD) : V3 m ρ c main_v35 = biasRow (m ((c : Thread nD τ).loc main_arg6)) := by
  show StableHlo.after hostOps1 (W2 m ρ c) (Proc.devRef .tc main_v35) = _
  after_results_simp
  rw [W2_arg6]
  rfl

/-- The second launch's right weights are argument 7. -/
theorem V3_arg7 (c : Dev nD) : V3 m ρ c main_arg7 = m ((c : Thread nD τ).loc main_arg7) := by
  show StableHlo.after hostOps1 (W2 m ρ c) (Proc.devRef .tc main_arg7) = _
  after_results_simp
  exact W2_arg7 m ρ c

/-! ## Between the second and the third launch -/

/-- The second launch's output buffer holds what its write-backs left. -/
theorem W4_v36 (c : Dev nD) : W4 m ρ c (Proc.devRef .tc main_v36) = H1 m ρ c := W4_arr m ρ c 6

/-- The host operations before the second launch and the second launch leave the row of sources as it was. -/
theorem W4_v1 (c : Dev nD) : W4 m ρ c (Proc.devRef .tc main_v1) = srcRow (m ((c : Thread nD τ).loc main_arg1)) := by
  refine (W4_of_ne m ρ c main_v1 (by decide)).trans ?_
  show StableHlo.after hostOps1 (W2 m ρ c) (Proc.devRef .tc main_v1) = _
  after_results_simp
  exact W2_v1 m ρ c

/-- The second launch and the host operations before it leave the row of destinations as it was. -/
theorem W4_v3 (c : Dev nD) : W4 m ρ c (Proc.devRef .tc main_v3) = dstRow (m ((c : Thread nD τ).loc main_arg1)) := by
  refine (W4_of_ne m ρ c main_v3 (by decide)).trans ?_
  show StableHlo.after hostOps1 (W2 m ρ c) (Proc.devRef .tc main_v3) = _
  after_results_simp
  exact W2_v3 m ρ c

/-- The degree column is an input window of the second launch too: it comes out as it went in. -/
theorem W4_v12 (c : Dev nD) : W4 m ρ c (Proc.devRef .tc main_v12) = invDegCol (m ((c : Thread nD τ).loc main_arg1)) :=
  (W4_arr m ρ c 2).trans (((dat1 (V3 m ρ) c).arrAt_in 2 rfl _).trans ((A_eq1 (V3 m ρ) c 2).trans (V3_v12 m ρ c)))

/-- Argument 8 is untouched up to the second launch's exit. -/
theorem W4_arg8 (c : Dev nD) : W4 m ρ c (Proc.devRef .tc main_arg8) = m ((c : Thread nD τ).loc main_arg8) := by
  refine (W4_of_ne m ρ c main_arg8 (by decide)).trans ?_
  show StableHlo.after hostOps1 (W2 m ρ c) (Proc.devRef .tc main_arg8) = _
  after_results_simp
  exact W2_arg8 m ρ c

/-- Argument 9 is untouched up to the second launch's exit. -/
theorem W4_arg9 (c : Dev nD) : W4 m ρ c (Proc.devRef .tc main_arg9) = m ((c : Thread nD τ).loc main_arg9) := by
  refine (W4_of_ne m ρ c main_arg9 (by decide)).trans ?_
  show StableHlo.after hostOps1 (W2 m ρ c) (Proc.devRef .tc main_arg9) = _
  after_results_simp
  exact W2_arg9 m ρ c

/-- Argument 10 is untouched up to the second launch's exit. -/
theorem W4_arg10 (c : Dev nD) : W4 m ρ c (Proc.devRef .tc main_arg10) = m ((c : Thread nD τ).loc main_arg10) := by
  refine (W4_of_ne m ρ c main_arg10 (by decide)).trans ?_
  show StableHlo.after hostOps1 (W2 m ρ c) (Proc.devRef .tc main_arg10) = _
  after_results_simp
  exact W2_arg10 m ρ c

/-- The third launch's neighbour-sum input is the neighbour sum of the second launch's output. -/
theorem V5_v46 (c : Dev nD) : V5 m ρ c main_v46 = neighbourSum256 (H1 m ρ c) (m ((c : Thread nD τ).loc main_arg1)) := by
  show StableHlo.after hostOps2 (W4 m ρ c) (Proc.devRef .tc main_v46) = _
  after_results_simp
  rw [W4_v36, W4_v1, W4_v3]
  rfl

/-- The third launch's own-feature input is the second launch's output. -/
theorem V5_v36 (c : Dev nD) : V5 m ρ c main_v36 = H1 m ρ c := by
  show StableHlo.after hostOps2 (W4 m ρ c) (Proc.devRef .tc main_v36) = _
  after_results_simp
  exact W4_v36 m ρ c

/-- The third launch's scale column is the same column of reciprocal clamped degrees. -/
theorem V5_v12 (c : Dev nD) : V5 m ρ c main_v12 = invDegCol (m ((c : Thread nD τ).loc main_arg1)) := by
  show StableHlo.after hostOps2 (W4 m ρ c) (Proc.devRef .tc main_v12) = _
  after_results_simp
  exact W4_v12 m ρ c

/-- The third launch's left weights are argument 8. -/
theorem V5_arg8 (c : Dev nD) : V5 m ρ c main_arg8 = m ((c : Thread nD τ).loc main_arg8) := by
  show StableHlo.after hostOps2 (W4 m ρ c) (Proc.devRef .tc main_arg8) = _
  after_results_simp
  exact W4_arg8 m ρ c

/-- The third launch's bias row is argument 9 as a row. -/
theorem V5_v47 (c : Dev nD) : V5 m ρ c main_v47 = biasRow (m ((c : Thread nD τ).loc main_arg9)) := by
  show StableHlo.after hostOps2 (W4 m ρ c) (Proc.devRef .tc main_v47) = _
  after_results_simp
  rw [W4_arg9]
  rfl

/-- The third launch's right weights are argument 10. -/
theorem V5_arg10 (c : Dev nD) : V5 m ρ c main_arg10 = m ((c : Thread nD τ).loc main_arg10) := by
  show StableHlo.after hostOps2 (W4 m ρ c) (Proc.devRef .tc main_arg10) = _
  after_results_simp
  exact W4_arg10 m ρ c

end Cert.KernelIdeal.Layers

end
-- ==== Proof.LibRealOps.lean ====
/-
  Closure of real-valuedness under the operations of a program.

  At the ideal values a float is an extended real and every operation is the exact one.  An array is
  REAL-VALUED when no entry is infinite.  This file shows that sums, differences, products, maxima,
  quotients by nonzero reals, finite sums, contractions, accumulating scatters and every re-indexing
  of real-valued arrays are real-valued again.
-/
import Idealize.ShloMosaic.PureOps.Ideal
import Idealize.ShloMosaic.PureOps.Ideal.Laws
import Idealize.ShloMosaic.Lib.IdealHost
import proofs.«145860_j89996744720665_2_alg».proof.Proof.LibRealArrays

noncomputable section

namespace Cert.RealArrays

open Idealize.ShloMosaic

/-! ### Element level -/

section Element
variable {ι κ : Type*}

/-- The sum over a finite set of real numbers, read in the extended reals, is the real sum. -/
theorem coe_finset_sum (S : Finset κ) (f : κ → ℝ) :
    (∑ j ∈ S, ((f j : ℝ) : EReal)) = ((∑ j ∈ S, f j : ℝ) : EReal) := by
  classical
  induction S using Finset.induction_on with
  | empty => simp
  | insert a S ha ih => rw [Finset.sum_insert ha, Finset.sum_insert ha, ih, EReal.coe_add]

/-- The maximum of two real numbers, read in the extended reals, is the maximum of their images. -/
theorem coe_max (x y : ℝ) : ((max x y : ℝ) : EReal) = max (x : EReal) (y : EReal) :=
  EReal.coe_strictMono.monotone.map_max

/-- The entrywise sum of two real-valued arrays is real-valued. -/
theorem IsReal.add {u v : ι → EReal} (hu : IsReal u) (hv : IsReal v) : IsReal (fun i => u i + v i) := by
  obtain ⟨f, hf⟩ := hu; obtain ⟨g, hg⟩ := hv
  exact ⟨fun i => f i + g i, fun i => by beta_reduce; rw [hf i, hg i, EReal.coe_add]⟩

/-- The entrywise difference of two real-valued arrays is real-valued. -/
theorem IsReal.sub {u v : ι → EReal} (hu : IsReal u) (hv : IsReal v) : IsReal (fun i => u i - v i) := by
  obtain ⟨f, hf⟩ := hu; obtain ⟨g, hg⟩ := hv
  exact ⟨fun i => f i - g i, fun i => by beta_reduce; rw [hf i, hg i, EReal.coe_sub]⟩

/-- The entrywise product of two real-valued arrays is real-valued. -/
theorem IsReal.mul {u v : ι → EReal} (hu : IsReal u) (hv : IsReal v) : IsReal (fun i => u i * v i) := by
  obtain ⟨f, hf⟩ := hu; obtain ⟨g, hg⟩ := hv
  exact ⟨fun i => f i * g i, fun i => by beta_reduce; rw [hf i, hg i, EReal.coe_mul]⟩

/-- The entrywise maximum of two real-valued arrays is real-valued. -/
theorem IsReal.max {u v : ι → EReal} (hu : IsReal u) (hv : IsReal v) : IsReal (fun i => max (u i) (v i)) := by
  obtain ⟨f, hf⟩ := hu; obtain ⟨g, hg⟩ := hv
  exact ⟨fun i => Max.max (f i) (g i), fun i => by beta_reduce; rw [hf i, hg i, coe_max]⟩

/-- A constant array whose value is a real number is real-valued. -/
theorem isReal_const (r : ℝ) : IsReal (fun _ : ι => (r : EReal)) := ⟨fun _ => r, fun _ => rfl⟩

/-- Summing a real-valued array over any family of finite sets gives a real-valued array. -/
theorem IsReal.sum_filter {u : κ → EReal} (hu : IsReal u) (S : ι → Finset κ) :
    IsReal (fun i => ∑ j ∈ S i, u j) := by
  obtain ⟨f, hf⟩ := hu
  refine ⟨fun i => ∑ j ∈ S i, f j, fun i => ?_⟩
  beta_reduce
  rw [← coe_finset_sum]
  exact Finset.sum_congr rfl fun j _ => hf j

/-- The row-by-row sum of products of two families of real-valued arrays is real-valued. -/
theorem IsReal.sum_mul [Fintype κ] {a b : ι → κ → EReal} (ha : ∀ i, IsReal (a i)) (hb : ∀ i, IsReal (b i)) :
    IsReal (fun i => ∑ k, a i k * b i k) := by
  choose f hf using ha
  choose g hg using hb
  refine ⟨fun i => ∑ k, f i k * g i k, fun i => ?_⟩
  beta_reduce
  rw [← coe_finset_sum]
  exact Finset.sum_congr rfl fun k _ => by rw [hf i k, hg i k, EReal.coe_mul]

/-- The quotient of a real-valued array by an array of nonzero real numbers is real-valued. -/
theorem IsReal.div_of_ne_zero {u v : ι → EReal} (hu : IsReal u)
    (hv : ∃ g : ι → ℝ, (∀ i, v i = ((g i : ℝ) : EReal)) ∧ ∀ i, g i ≠ 0) :
    IsReal (fun i => Ideal.div (u i) (v i)) := by
  obtain ⟨f, hf⟩ := hu; obtain ⟨g, hg, hne⟩ := hv
  exact ⟨fun i => f i * (1 / g i), fun i => by beta_reduce; rw [hf i, hg i, Ideal.div_coe (hne i), EReal.coe_mul]⟩

/-- The maximum of a real-valued array with one is an array of nonzero real numbers. -/
theorem maxOne {v : ι → EReal} (hv : IsReal v) :
    ∃ g : ι → ℝ, (∀ i, max (v i) 1 = ((g i : ℝ) : EReal)) ∧ ∀ i, g i ≠ 0 := by
  obtain ⟨f, hf⟩ := hv
  refine ⟨fun i => Max.max (f i) 1, fun i => ?_, fun i => ?_⟩
  · beta_reduce; rw [hf i, coe_max, EReal.coe_one]
  · have : (1 : ℝ) ≤ Max.max (f i) 1 := le_max_right _ _
    positivity

end Element

/-! ### Array level: the pointwise operations, contractions and constants -/

section Arrays
variable {s : Shape} {φ : FTy}

/-- The entrywise sum of two real-valued float arrays is real-valued. -/
theorem isReal_addf {u v : FVec Ideal s φ} (hu : IsReal (u : s.Idx → EReal)) (hv : IsReal (v : s.Idx → EReal)) :
    IsReal (addf u v : s.Idx → EReal) := hu.add hv

/-- The entrywise difference of two real-valued float arrays is real-valued. -/
theorem isReal_subf {u v : FVec Ideal s φ} (hu : IsReal (u : s.Idx → EReal)) (hv : IsReal (v : s.Idx → EReal)) :
    IsReal (subf u v : s.Idx → EReal) := hu.sub hv

/-- The entrywise product of two real-valued float arrays is real-valued. -/
theorem isReal_mulf {u v : FVec Ideal s φ} (hu : IsReal (u : s.Idx → EReal)) (hv : IsReal (v : s.Idx → EReal)) :
    IsReal (mulf u v : s.Idx → EReal) := hu.mul hv

/-- The entrywise maximum of two real-valued float arrays is real-valued. -/
theorem isReal_maximumf {u v : FVec Ideal s φ} (hu : IsReal (u : s.Idx → EReal)) (hv : IsReal (v : s.Idx → EReal)) :
    IsReal (maximumf u v : s.Idx → EReal) := hu.max hv

/-- The entrywise quotient of a real-valued float array by an array of nonzero real numbers is real-valued. -/
theorem isReal_hostDivf {u v : FVec Ideal s φ} (hu : IsReal (u : s.Idx → EReal))
    (hv : ∃ g : s.Idx → ℝ, (∀ i, (v : s.Idx → EReal) i = ((g i : ℝ) : EReal)) ∧ ∀ i, g i ≠ 0) :
    IsReal (Host.divf u v : s.Idx → EReal) := hu.div_of_ne_zero hv

/-- The maximum of a real-valued float array with an array of ones is an array of nonzero real numbers. -/
theorem maxOne_maximumf {v w : FVec Ideal s φ} (hv : IsReal (v : s.Idx → EReal))
    (hw : ∀ i, (w : s.Idx → EReal) i = ((1 : ℝ) : EReal)) :
    ∃ g : s.Idx → ℝ, (∀ i, (maximumf v w : s.Idx → EReal) i = ((g i : ℝ) : EReal)) ∧ ∀ i, g i ≠ 0 := by
  obtain ⟨g, hg, hne⟩ := maxOne hv
  refine ⟨g, fun i => ?_, hne⟩
  show Max.max (v i) (w i) = _
  rw [hw i, EReal.coe_one]
  exact hg i

/-- The zero splat is real-valued. -/
theorem isReal_constant_zero : IsReal (constant (F := Ideal) s .f32 0x00000000#32 : s.Idx → EReal) :=
  ⟨fun _ => 0, fun _ => by
    show Ideal.ofBits .f32 0x00000000#32 = _
    rw [Ideal.ofBits_zero_f32, EReal.coe_zero]⟩

/-- The splat of one is real-valued. -/
theorem isReal_constant_one : IsReal (constant (F := Ideal) s .f32 0x3F800000#32 : s.Idx → EReal) :=
  ⟨fun _ => 1, fun _ => by
    show Ideal.ofBits .f32 0x3F800000#32 = _
    rw [Ideal.ofBits_one_f32, EReal.coe_one]⟩

/-- Every entry of the splat of one is the real number one. -/
theorem constant_one_apply (i : s.Idx) :
    (constant (F := Ideal) s .f32 0x3F800000#32 : s.Idx → EReal) i = ((1 : ℝ) : EReal) := by
  show Ideal.ofBits .f32 0x3F800000#32 = _
  rw [Ideal.ofBits_one_f32, EReal.coe_one]

end Arrays

section Contract
variable {sl sr so : Shape} {φ₁ φ₂ : FTy}

/-- A contraction of two real-valued arrays (each result entry a finite sum of products) is real-valued. -/
theorem isReal_dotGeneral {d : DotDims sl sr so} {prec : Option ContractPrecision}
    {l : FVec Ideal sl φ₁} {r : FVec Ideal sr φ₂}
    (hl : IsReal (l : sl.Idx → EReal)) (hr : IsReal (r : sr.Idx → EReal)) :
    IsReal (Host.dotGeneral (F := Ideal) d prec l r : so.Idx → EReal) := by
  have h : (Host.dotGeneral (F := Ideal) d prec l r : so.Idx → EReal)
      = fun j => ∑ k : d.contr.Idx, (l : sl.Idx → EReal) (d.lhsIdx j k) * (r : sr.Idx → EReal) (d.rhsIdx j k) := by
    funext j; exact Ideal.dotGeneral_apply d prec .single l r j
  rw [h]
  exact IsReal.sum_mul (a := fun j k => (l : sl.Idx → EReal) (d.lhsIdx j k))
    (b := fun j k => (r : sr.Idx → EReal) (d.rhsIdx j k)) (fun j => hl.comp _) (fun j => hr.comp _)

/-- A matrix product of two real-valued arrays accumulated into the zero splat is real-valued. -/
theorem isReal_matmul_zero {d : DotDims sl sr so} {prec : Option ContractPrecision}
    {l : FVec Ideal sl φ₁} {r : FVec Ideal sr φ₂}
    (hl : IsReal (l : sl.Idx → EReal)) (hr : IsReal (r : sr.Idx → EReal)) :
    IsReal (matmul (F := Ideal) d prec l r (constant so .f32 0x00000000#32) : so.Idx → EReal) := by
  have h : (matmul (F := Ideal) d prec l r (constant so .f32 0x00000000#32) : so.Idx → EReal)
      = fun j => ∑ k : d.contr.Idx, (l : sl.Idx → EReal) (d.lhsIdx j k) * (r : sr.Idx → EReal) (d.rhsIdx j k) := by
    funext j; exact Ideal.matmul_constant_zero_apply d prec l r j
  rw [h]
  exact IsReal.sum_mul (a := fun j k => (l : sl.Idx → EReal) (d.lhsIdx j k))
    (b := fun j k => (r : sr.Idx → EReal) (d.rhsIdx j k)) (fun j => hl.comp _) (fun j => hr.comp _)

end Contract

/-! ### Layout and indexing operations: each result entry is an entry of the operand -/

section Layout
variable {s t : Shape}

/-- Broadcasting a real-valued array along new or unit axes gives a real-valued array. -/
theorem isReal_broadcastInDim {dims : Fin s.rank → Fin t.rank} {h : s.BroadcastsInDim t dims} {x : s.Idx → EReal}
    (hx : IsReal x) : IsReal (broadcastInDim t dims h x) := by
  unfold broadcastInDim
  exact hx.comp _

/-- Reading a real-valued array under another shape with the same row-major order gives a real-valued array. -/
theorem isReal_shapeCast {x : s.Idx → EReal} {h : s.ShapeCasts t} (hx : IsReal x) : IsReal (shapeCast t x h) := by
  unfold shapeCast
  exact hx.comp _

/-- Gathering entries of a real-valued array at any indices gives a real-valued array. -/
theorem isReal_gather {si : Shape} {w : Nat} {d : GatherDims s si t} {x : s.Idx → EReal} {idx : IVec si w}
    (hx : IsReal x) : IsReal (Host.gather d x idx) := by
  unfold Host.gather
  exact hx.comp _

end Layout

/-! ### The accumulating scatter -/

section Scatter
variable {s si u : Shape} {w : Nat} {φ : FTy}

/-- Scattering real-valued updates additively into a real-valued array gives a real-valued array: each result
    entry is the operand's entry plus the finite sum of the updates that land on it. -/
theorem isReal_scatterAdd {d : ScatterDims s si u} {x : FVec Ideal s φ} {idx : IVec si w} {upd : FVec Ideal u φ}
    (hx : IsReal (x : s.Idx → EReal)) (hupd : IsReal (upd : u.Idx → EReal)) :
    IsReal (Host.scatterAdd (F := Ideal) d x idx upd : s.Idx → EReal) := by
  have h : (Host.scatterAdd (F := Ideal) d x idx upd : s.Idx → EReal) = Ideal.hostScatterAdd d x idx upd := rfl
  rw [h]
  unfold Ideal.hostScatterAdd
  exact hx.add (hupd.sum_filter _)

end Scatter

end Cert.RealArrays
-- ==== Proof.LayerArrays.lean ====
/-
  The kernel's arrangement of a layer and the reference's, joined array by array.

  A launch of the kernel is given each node's reciprocal clamped degree as a column and the bias as a single row; the
  reference divides by the clamped degree itself and reads the bias vector.  Read at an index, the column is
  `1 / max (degree) 1` and the row is the bias, so entry by entry the kernel's result is the reference's as soon as
  the features and the weights are real numbers — the clamped degree is a real number at least one whatever the edges are.
  The file also carries real-valuedness through a layer: real features, weights and bias give a real-valued layer.
-/
import proofs.«145860_j89996744720665_2_alg».proof.Proof.KernelSide
import proofs.«145860_j89996744720665_2_alg».proof.Proof.LibRealOps
import Idealize.ShloMosaic.Lib.ValueIdx
import Idealize.ShloMosaic.Lib.ValueLayout
import Idealize.ShloMosaic.Lib.Pipeline.Value
import Idealize.ShloMosaic.Lib.IdealHost

noncomputable section

namespace Cert.MeanLayer

open Idealize.ShloMosaic Idealize.ShloMosaic.ValueIdx Cert.KernelIdeal Cert.RealArrays
open Cert.KernelIdeal.Facts₀ Cert.KernelIdeal.Facts

variable [Cert.KernelIdeal.Facts]

/-! ### The degree and the neighbour sums are real-valued -/

/-- The number of edges into each node is a real number. -/
theorem isReal_degree (e : IVec S2x600000 32) : IsReal (degree e) := by
  unfold degree
  exact isReal_scatterAdd (isReal_broadcastInDim isReal_constant_zero) (isReal_broadcastInDim isReal_constant_one)

/-- The degree clamped below at one is a nonzero real number at every node. -/
theorem clampedDegree_real (e : IVec S2x600000 32) :
    ∃ g : S50000.Idx → ℝ, (∀ i, clampedDegree e i = ((g i : ℝ) : EReal)) ∧ ∀ i, g i ≠ 0 := by
  unfold clampedDegree
  exact maxOne_maximumf (isReal_degree e) (fun i => by
    rw [broadcastInDim_scalar_apply]
    exact constant_one_apply ix0)

/-- The clamped degree is real-valued. -/
theorem isReal_clampedDegree (e : IVec S2x600000 32) : IsReal (clampedDegree e) := by
  obtain ⟨g, hg, _⟩ := clampedDegree_real e
  exact ⟨g, hg⟩

/-- The sum of real source rows over the edges into each node is real-valued (rows of 128 features). -/
theorem isReal_neighbourSum128 {h : FVec Ideal S50000x128 .f32} (hh : IsReal h) (e : IVec S2x600000 32) :
    IsReal (neighbourSum128 h e) := by
  unfold neighbourSum128
  exact isReal_scatterAdd (isReal_broadcastInDim isReal_constant_zero) (isReal_gather hh)

/-- The sum of real source rows over the edges into each node is real-valued (rows of 256 features). -/
theorem isReal_neighbourSum256 {h : FVec Ideal S50000x256 .f32} (hh : IsReal h) (e : IVec S2x600000 32) :
    IsReal (neighbourSum256 h e) := by
  unfold neighbourSum256
  exact isReal_scatterAdd (isReal_broadcastInDim isReal_constant_zero) (isReal_gather hh)

/-! ### The column of reciprocal degrees and the bias row, read at an index -/

/-- The column's entry at node `r` is one divided by that node's clamped degree. -/
theorem invDegCol_apply (e : IVec S2x600000 32) (r : Fin 50000) :
    invDegCol e (ix2 r (0 : Fin 1)) = Ideal.div 1 (clampedDegree e (ix1 r)) := by
  have h1 : invDegCol e (ix2 r (0 : Fin 1))
      = Host.divf (broadcastInDim S50000 ![] bcast_S_S50000 (constant (F := Ideal) S_ .f32 0x3F800000#32))
          (clampedDegree e) (ix1 r) := by
    unfold invDegCol
    exact broadcastInDim_apply _ bcast_S50000_S50000x1_0 _ _ (ix1 r) (fun a => match a with
      | ⟨0, _⟩ => by show r.val = if (50000 : Nat) = 1 then 0 else r.val; rw [if_neg (by decide)])
  rw [h1, hostDivf_apply, broadcastInDim_scalar_apply]
  show Ideal.div (Ideal.ofBits .f32 0x3F800000#32) _ = _
  rw [Ideal.ofBits_one_f32]

/-- The bias row's entry at channel `c` is the bias vector's entry at `c`. -/
theorem biasRow_apply (bl : FVec Ideal S256 .f32) (c : Fin 256) : biasRow bl (ix2 (0 : Fin 1) c) = bl (ix1 c) := by
  unfold biasRow
  exact shapeCast_a_1a_apply bl shapeCasts_S256_S1x256 0 c

/-! ### The array law -/

/-- On real features and weights a launch of the kernel, given the neighbour sums, the reciprocal degrees and the bias
    row, computes the reference's layer (128 input features); the bias may be any extended real. -/
theorem kernelLayer128_eq {h : FVec Ideal S50000x128 .f32} {wl wr : FVec Ideal S128x256 .f32} (e : IVec S2x600000 32)
    (bl : FVec Ideal S256 .f32) (hh : IsReal h) (hwl : IsReal wl) (hwr : IsReal wr) :
    kernelLayer128 (neighbourSum128 h e) h (invDegCol e) wl (biasRow bl) wr = layer128 h e wl wr bl := by
  funext i
  obtain ⟨r, c, rfl⟩ : ∃ (r : Fin 50000) (c : Fin 256), i = ix2 r c := ⟨i 0, i 1, eq_ix2 i⟩
  rw [kernelLayer128_apply, layer128_apply, invDegCol_apply, biasRow_apply]
  obtain ⟨g, hg, hg0⟩ := clampedDegree_real e
  rw [hg (ix1 r)]
  exact splitEntry_eq_meanEntry ((isReal_neighbourSum128 hh e).comp _) (hh.comp _) (hwl.comp _) (hwr.comp _) (hg0 _) _

/-- The same for 256 input features. -/
theorem kernelLayer256_eq {h : FVec Ideal S50000x256 .f32} {wl wr : FVec Ideal S256x256 .f32} (e : IVec S2x600000 32)
    (bl : FVec Ideal S256 .f32) (hh : IsReal h) (hwl : IsReal wl) (hwr : IsReal wr) :
    kernelLayer256 (neighbourSum256 h e) h (invDegCol e) wl (biasRow bl) wr = layer256 h e wl wr bl := by
  funext i
  obtain ⟨r, c, rfl⟩ : ∃ (r : Fin 50000) (c : Fin 256), i = ix2 r c := ⟨i 0, i 1, eq_ix2 i⟩
  rw [kernelLayer256_apply, layer256_apply, invDegCol_apply, biasRow_apply]
  obtain ⟨g, hg, hg0⟩ := clampedDegree_real e
  rw [hg (ix1 r)]
  exact splitEntry_eq_meanEntry ((isReal_neighbourSum256 hh e).comp _) (hh.comp _) (hwl.comp _) (hwr.comp _) (hg0 _) _

/-! ### A layer keeps real features real -/

/-- With real features, weights and bias a layer on 128 input features is real-valued. -/
theorem isReal_layer128 {h : FVec Ideal S50000x128 .f32} {wl wr : FVec Ideal S128x256 .f32} {bl : FVec Ideal S256 .f32}
    (e : IVec S2x600000 32) (hh : IsReal h) (hwl : IsReal wl) (hwr : IsReal wr) (hbl : IsReal bl) :
    IsReal (layer128 h e wl wr bl) := by
  obtain ⟨g, hg, hg0⟩ := clampedDegree_real e
  unfold layer128 meanEntry
  refine IsReal.add (IsReal.add (IsReal.sum_mul (fun i => ?_) (fun i => hwl.comp _)) (hbl.comp _))
    (IsReal.sum_mul (fun i => hh.comp _) (fun i => hwr.comp _))
  exact IsReal.div_of_ne_zero ((isReal_neighbourSum128 hh e).comp _) ⟨fun _ => g (ix1 (i 0)), fun _ => hg _, fun _ => hg0 _⟩

/-- With real features, weights and bias a layer on 256 input features is real-valued. -/
theorem isReal_layer256 {h : FVec Ideal S50000x256 .f32} {wl wr : FVec Ideal S256x256 .f32} {bl : FVec Ideal S256 .f32}
    (e : IVec S2x600000 32) (hh : IsReal h) (hwl : IsReal wl) (hwr : IsReal wr) (hbl : IsReal bl) :
    IsReal (layer256 h e wl wr bl) := by
  obtain ⟨g, hg, hg0⟩ := clampedDegree_real e
  unfold layer256 meanEntry
  refine IsReal.add (IsReal.add (IsReal.sum_mul (fun i => ?_) (fun i => hwl.comp _)) (hbl.comp _))
    (IsReal.sum_mul (fun i => hh.comp _) (fun i => hwr.comp _))
  exact IsReal.div_of_ne_zero ((isReal_neighbourSum256 hh e).comp _) ⟨fun _ => g (ix1 (i 0)), fun _ => hg _, fun _ => hg0 _⟩

/-- The maximum with zero of a real-valued array is real-valued. -/
theorem isReal_relu {v : FVec Ideal S50000x256 .f32} (hv : IsReal v) : IsReal (relu v) := by
  unfold relu
  exact hv.max ⟨fun _ => 0, fun _ => EReal.coe_zero.symm⟩

end Cert.MeanLayer

end
-- ==== Proof.KernelValue.lean ====
/-
  The idealized kernel's result is the network of its arguments.

  The result buffer ends at what the third launch's write-backs leave (`KernelRun`).  Each launch's output array is the
  kernel's whole-array function of the six arrays the launch is given (`KernelBlocks`), and those are the neighbour sums
  of the previous launch's output, that output itself, the column of reciprocal clamped degrees and the layer's weights
  and bias (`KernelArrays`).  Where the features and weights are real the kernel's arrangement of a layer is the
  reference's (`LayerArrays`: the three-pass products collapse, the reciprocal becomes the quotient), and a layer of real
  arrays is real, so the fact travels from the arguments through the first launch to the second and the third.
-/
import proofs.«145860_j89996744720665_2_alg».proof.Proof.KernelRun
import proofs.«145860_j89996744720665_2_alg».proof.Proof.KernelBlocks
import proofs.«145860_j89996744720665_2_alg».proof.Proof.KernelArrays
import proofs.«145860_j89996744720665_2_alg».proof.Proof.LayerArrays

set_option maxRecDepth 16384

noncomputable section

namespace Cert.KernelIdeal.Layers

open Idealize.ShloMosaic Idealize.ShloMosaic.TcCoe Idealize.SL.Sem
open Cert.KernelIdeal Cert.KernelIdeal.Gen Cert.KernelIdeal.GenP Cert.MeanLayer Cert.RealArrays

variable (m : (ℓ : Loc nD τ sig) → Buf (Elt Ideal) ℓ) (ρ : Dev nD → PrngReg)

/-- The first launch's output: the first layer with `max · 0`, of real features and weights. -/
theorem H0_eq (c : Dev nD) (hx : IsReal (m ((c : Thread nD τ).loc main_arg0)))
    (hwl : IsReal (m ((c : Thread nD τ).loc main_arg2))) (hwr : IsReal (m ((c : Thread nD τ).loc main_arg4))) :
    H0 m ρ c = relu (layer128 (m ((c : Thread nD τ).loc main_arg0)) (m ((c : Thread nD τ).loc main_arg1))
      (m ((c : Thread nD τ).loc main_arg2)) (m ((c : Thread nD τ).loc main_arg4)) (m ((c : Thread nD τ).loc main_arg3))) := by
  show (dat0 (V1 m ρ) c).arrAt 6 cfg0.N = _
  rw [final0 (V1 m ρ) c, V1_v22 m ρ c, V1_arg0 m ρ c, V1_v12 m ρ c, V1_arg2 m ρ c, V1_v23 m ρ c, V1_arg4 m ρ c,
    kernelLayer128_eq _ _ hx hwl hwr]

/-- The second launch's output: the second layer with `max · 0` of the first launch's output, when that is real. -/
theorem H1_eq (c : Dev nD) (hh : IsReal (H0 m ρ c))
    (hwl : IsReal (m ((c : Thread nD τ).loc main_arg5))) (hwr : IsReal (m ((c : Thread nD τ).loc main_arg7))) :
    H1 m ρ c = relu (layer256 (H0 m ρ c) (m ((c : Thread nD τ).loc main_arg1))
      (m ((c : Thread nD τ).loc main_arg5)) (m ((c : Thread nD τ).loc main_arg7)) (m ((c : Thread nD τ).loc main_arg6))) := by
  show (dat1 (V3 m ρ) c).arrAt 6 cfg1.N = _
  rw [final1 (V3 m ρ) c, V3_v34 m ρ c, V3_v24 m ρ c, V3_v12 m ρ c, V3_arg5 m ρ c, V3_v35 m ρ c, V3_arg7 m ρ c,
    kernelLayer256_eq _ _ hh hwl hwr]

/-- THE RESULT: with real features, weights and first two biases, the result buffer ends at the network of the arguments. -/
theorem result_eq (c : Dev nD)
    (h0 : IsReal (m ((c : Thread nD τ).loc main_arg0))) (h2 : IsReal (m ((c : Thread nD τ).loc main_arg2)))
    (h3 : IsReal (m ((c : Thread nD τ).loc main_arg3))) (h4 : IsReal (m ((c : Thread nD τ).loc main_arg4)))
    (h5 : IsReal (m ((c : Thread nD τ).loc main_arg5))) (h6 : IsReal (m ((c : Thread nD τ).loc main_arg6)))
    (h7 : IsReal (m ((c : Thread nD τ).loc main_arg7))) (h8 : IsReal (m ((c : Thread nD τ).loc main_arg8)))
    (h10 : IsReal (m ((c : Thread nD τ).loc main_arg10))) :
    W6 m ρ c (Proc.devRef .tc main_v48)
      = network (m ((c : Thread nD τ).loc main_arg0)) (m ((c : Thread nD τ).loc main_arg1))
          (m ((c : Thread nD τ).loc main_arg2)) (m ((c : Thread nD τ).loc main_arg4)) (m ((c : Thread nD τ).loc main_arg3))
          (m ((c : Thread nD τ).loc main_arg5)) (m ((c : Thread nD τ).loc main_arg7)) (m ((c : Thread nD τ).loc main_arg6))
          (m ((c : Thread nD τ).loc main_arg8)) (m ((c : Thread nD τ).loc main_arg10)) (m ((c : Thread nD τ).loc main_arg9)) := by
  have e0 := H0_eq m ρ c h0 h2 h4
  have r0 : IsReal (H0 m ρ c) := by rw [e0]; exact isReal_relu (isReal_layer128 _ h0 h2 h4 h3)
  have e1 := H1_eq m ρ c r0 h5 h7
  have r1 : IsReal (H1 m ρ c) := by rw [e1]; exact isReal_relu (isReal_layer256 _ r0 h5 h7 h6)
  rw [W6_result m ρ c, final2 (V5 m ρ) c, V5_v46 m ρ c, V5_v36 m ρ c, V5_v12 m ρ c, V5_arg8 m ρ c, V5_v47 m ρ c,
    V5_arg10 m ρ c, kernelLayer256_eq _ _ r1 h8 h10, e1, e0]
  rfl

end Cert.KernelIdeal.Layers

end
-- ==== Proof.RefRead.lean ====
import proofs.«145860_j89996744720665_2_alg».proof.Proof.Gen.ReferenceIdeal.Run
import proofs.«145860_j89996744720665_2_alg».proof.Proof.Gen.ReferenceIdeal.Read
-- ==== Proof.RefLayers.lean ====
/-
  The reference program is the specification's network.

  The reference computes three mean-aggregation layers.  Each of its operations is, read at an index, a function of
  its operands at an index; chained, entry (r, c) of a layer is
      ((∑ k, (agg (r,k) / D r) · Wl (k,c)) + bl c) + ∑ k, h (r,k) · Wr (k,c),
  where agg is the accumulating scatter of the gathered source rows of the layer's input h and D the degree clamped
  below at one.  The scatter, the gather, the index columns and the degree are the very operations the specification
  names (neighbour sum, clamped degree), so those identifications hold by unfolding; what is left is to identify the
  composed index functions of the broadcasts and of the two contractions with the coordinates (r, k), (k, c), r and c,
  and to read the max against the zero pattern as max · 0.  The three layers compose to the network.  Of a layer's two
  weight matrices the LEFT one (Wl) multiplies the neighbour mean and the RIGHT one (Wr) the node's own features.
-/
import proofs.«145860_j89996744720665_2_alg».proof.Proof.RefRead
import proofs.«145860_j89996744720665_2_alg».proof.Proof.Spec
import Idealize.ShloMosaic.Lib.ValueIdx
import Idealize.ShloMosaic.PureOps.Ideal.Laws

noncomputable section

namespace Cert.ReferenceIdeal.Layers

open Idealize.ShloMosaic Idealize.ShloMosaic.ValueIdx Idealize.SL.Sem Cert.MeanLayer Cert.ReferenceIdeal

variable [Cert.KernelIdeal.Facts]

variable (x0 : (⟨S50000x128, .f32⟩ : BufTy).Contents (Elt Ideal)) (x1 : (⟨S2x600000, .i32⟩ : BufTy).Contents (Elt Ideal)) (x2 : (⟨S128x256, .f32⟩ : BufTy).Contents (Elt Ideal)) (x3 : (⟨S256, .f32⟩ : BufTy).Contents (Elt Ideal)) (x4 : (⟨S128x256, .f32⟩ : BufTy).Contents (Elt Ideal))
  (x5 : (⟨S256x256, .f32⟩ : BufTy).Contents (Elt Ideal)) (x6 : (⟨S256, .f32⟩ : BufTy).Contents (Elt Ideal)) (x7 x8 : (⟨S256x256, .f32⟩ : BufTy).Contents (Elt Ideal)) (x9 : (⟨S256, .f32⟩ : BufTy).Contents (Elt Ideal)) (x10 : (⟨S256x256, .f32⟩ : BufTy).Contents (Elt Ideal))

/-! ## The index columns are the specification's -/

/-- The reference's source-index column is the specification's. -/
theorem src0 : Read.val_main_v9 (F := Ideal) x1 = srcCol x1 := rfl

/-- The reference's destination-index column is the specification's. -/
theorem dst0 : Read.val_main_v12 (F := Ideal) x1 = dstCol x1 := rfl

/-! ## Layer 0, entry by entry -/

/-- Layer 0's summed neighbour rows are the specification's neighbour sum of the layer's input. -/
theorem agg0 : Read.val_main_v13 (F := Ideal) x0 x1 = neighbourSum128 (x0) x1 := rfl

/-- Layer 0's divisor is the specification's clamped degree. -/
theorem deg0 : Read.val_main_v19 (F := Ideal) x1 = clampedDegree x1 := rfl

/-- Layer 0's scaled neighbour sum at node r, feature k: the neighbour sum divided by the clamped degree of r. -/
theorem v22_at (r : Fin 50000) (k : Fin 128) :
    Read.val_main_v22 (F := Ideal) x0 x1 (ix2 r k)
      = Ideal.div (neighbourSum128 (x0) x1 (ix2 r k)) (clampedDegree x1 (ix1 r)) := by
  rw [Read.val_main_v22_apply, Read.val_main_v21_apply, Read.val_main_v20_apply, agg0, deg0]
  have e : Read.idx_main_v20 (Read.idx_main_v21 (ix2 r k)) = ix1 r := funext fun a => Fin.ext (by match a with | ⟨0, _⟩ => rfl)
  rw [e]
  rfl

/-- Layer 0's first product at (r, c): the scaled neighbour row of r against column c of the left weights. -/
theorem v23_at (r : Fin 50000) (c : Fin 256) :
    Read.val_main_v23 (F := Ideal) x0 x1 x2 (ix2 r c)
      = ∑ k : Fin 128, Ideal.div (neighbourSum128 (x0) x1 (ix2 r k)) (clampedDegree x1 (ix1 r)) * x2 (ix2 k c) := by
  rw [Read.val_main_v23_apply]
  refine Finset.sum_congr rfl fun k _ => ?_
  have el : Read.lidx_main_v23 (ix2 r c) k = ix2 r k := funext fun a => Fin.ext (by match a with | ⟨0, _⟩ => rfl | ⟨1, _⟩ => rfl)
  have er : Read.ridx_main_v23 (ix2 r c) k = ix2 k c := funext fun a => Fin.ext (by match a with | ⟨0, _⟩ => rfl | ⟨1, _⟩ => rfl)
  rw [el, er, v22_at]

/-- Layer 0's bias, broadcast over the nodes, at (r, c): the bias entry c. -/
theorem v25_at (r : Fin 50000) (c : Fin 256) : Read.val_main_v25 (F := Ideal) x3 (ix2 r c) = x3 (ix1 c) := by
  rw [Read.val_main_v25_apply, Read.val_main_v24_apply]
  have e : Read.idx_main_v24 (Read.idx_main_v25 (ix2 r c)) = ix1 c := funext fun a => Fin.ext (by match a with | ⟨0, _⟩ => rfl)
  rw [e]

/-- Layer 0's second product at (r, c): the node's own row against column c of the right weights. -/
theorem v27_at (r : Fin 50000) (c : Fin 256) :
    Read.val_main_v27 (F := Ideal) x0 x4 (ix2 r c) = ∑ k : Fin 128, (x0) (ix2 r k) * x4 (ix2 k c) := by
  rw [Read.val_main_v27_apply]
  refine Finset.sum_congr rfl fun k _ => ?_
  have el : Read.lidx_main_v27 (ix2 r c) k = ix2 r k := funext fun a => Fin.ext (by match a with | ⟨0, _⟩ => rfl | ⟨1, _⟩ => rfl)
  have er : Read.ridx_main_v27 (ix2 r c) k = ix2 k c := funext fun a => Fin.ext (by match a with | ⟨0, _⟩ => rfl | ⟨1, _⟩ => rfl)
  rw [el, er]

/-- The array layer 0's maximum is taken against is zero at every index. -/
theorem call0_at (i : S50000x256.Idx) : Read.val_main_call0_v0 (F := Ideal) i = 0 := by
  rw [Read.val_main_call0_v0_apply, Read.val_main_call0_cst_apply]
  exact Ideal.ofBits_zero_f32

/-- LAYER 0: the reference's layer is max · 0 of the specification's layer on the features. -/
theorem ref_layer0 :
    Read.val_main_v29 (F := Ideal) x0 x1 x2 x3 x4 = relu (layer128 (x0) x1 x2 x4 x3) := by
  funext i
  obtain ⟨r, c, rfl⟩ : ∃ (r : Fin 50000) (c : Fin 256), i = ix2 r c := ⟨i 0, i 1, eq_ix2 i⟩
  rw [Read.val_main_v29_apply, Read.val_main_v28_apply, Read.val_main_v26_apply, v23_at, v25_at, v27_at, call0_at]
  rfl

/-! ## Layer 1, entry by entry -/

/-- Layer 1's summed neighbour rows are the specification's neighbour sum of the layer's input. -/
theorem agg1 : Read.val_main_v39 (F := Ideal) x0 x1 x2 x3 x4 = neighbourSum256 (Read.val_main_v29 (F := Ideal) x0 x1 x2 x3 x4) x1 := rfl

/-- Layer 1's divisor is the specification's clamped degree. -/
theorem deg1 : Read.val_main_v45 (F := Ideal) x1 = clampedDegree x1 := rfl

/-- Layer 1's scaled neighbour sum at node r, feature k: the neighbour sum divided by the clamped degree of r. -/
theorem v48_at (r : Fin 50000) (k : Fin 256) :
    Read.val_main_v48 (F := Ideal) x0 x1 x2 x3 x4 (ix2 r k)
      = Ideal.div (neighbourSum256 (Read.val_main_v29 (F := Ideal) x0 x1 x2 x3 x4) x1 (ix2 r k)) (clampedDegree x1 (ix1 r)) := by
  rw [Read.val_main_v48_apply, Read.val_main_v47_apply, Read.val_main_v46_apply, agg1, deg1]
  have e : Read.idx_main_v46 (Read.idx_main_v47 (ix2 r k)) = ix1 r := funext fun a => Fin.ext (by match a with | ⟨0, _⟩ => rfl)
  rw [e]
  rfl

/-- Layer 1's first product at (r, c): the scaled neighbour row of r against column c of the left weights. -/
theorem v49_at (r : Fin 50000) (c : Fin 256) :
    Read.val_main_v49 (F := Ideal) x0 x1 x2 x3 x4 x5 (ix2 r c)
      = ∑ k : Fin 256, Ideal.div (neighbourSum256 (Read.val_main_v29 (F := Ideal) x0 x1 x2 x3 x4) x1 (ix2 r k)) (clampedDegree x1 (ix1 r)) * x5 (ix2 k c) := by
  rw [Read.val_main_v49_apply]
  refine Finset.sum_congr rfl fun k _ => ?_
  have el : Read.lidx_main_v49 (ix2 r c) k = ix2 r k := funext fun a => Fin.ext (by match a with | ⟨0, _⟩ => rfl | ⟨1, _⟩ => rfl)
  have er : Read.ridx_main_v49 (ix2 r c) k = ix2 k c := funext fun a => Fin.ext (by match a with | ⟨0, _⟩ => rfl | ⟨1, _⟩ => rfl)
  rw [el, er, v48_at]

/-- Layer 1's bias, broadcast over the nodes, at (r, c): the bias entry c. -/
theorem v51_at (r : Fin 50000) (c : Fin 256) : Read.val_main_v51 (F := Ideal) x6 (ix2 r c) = x6 (ix1 c) := by
  rw [Read.val_main_v51_apply, Read.val_main_v50_apply]
  have e : Read.idx_main_v50 (Read.idx_main_v51 (ix2 r c)) = ix1 c := funext fun a => Fin.ext (by match a with | ⟨0, _⟩ => rfl)
  rw [e]

/-- Layer 1's second product at (r, c): the node's own row against column c of the right weights. -/
theorem v53_at (r : Fin 50000) (c : Fin 256) :
    Read.val_main_v53 (F := Ideal) x0 x1 x2 x3 x4 x7 (ix2 r c) = ∑ k : Fin 256, (Read.val_main_v29 (F := Ideal) x0 x1 x2 x3 x4) (ix2 r k) * x7 (ix2 k c) := by
  rw [Read.val_main_v53_apply]
  refine Finset.sum_congr rfl fun k _ => ?_
  have el : Read.lidx_main_v53 (ix2 r c) k = ix2 r k := funext fun a => Fin.ext (by match a with | ⟨0, _⟩ => rfl | ⟨1, _⟩ => rfl)
  have er : Read.ridx_main_v53 (ix2 r c) k = ix2 k c := funext fun a => Fin.ext (by match a with | ⟨0, _⟩ => rfl | ⟨1, _⟩ => rfl)
  rw [el, er]

/-- The array layer 1's maximum is taken against is zero at every index. -/
theorem call1_at (i : S50000x256.Idx) : Read.val_main_call1_v0 (F := Ideal) i = 0 := by
  rw [Read.val_main_call1_v0_apply, Read.val_main_call1_cst_apply]
  exact Ideal.ofBits_zero_f32

/-- LAYER 1: the reference's layer is max · 0 of the specification's layer on layer 0's result. -/
theorem ref_layer1 :
    Read.val_main_v55 (F := Ideal) x0 x1 x2 x3 x4 x5 x6 x7 = relu (layer256 (Read.val_main_v29 (F := Ideal) x0 x1 x2 x3 x4) x1 x5 x7 x6) := by
  funext i
  obtain ⟨r, c, rfl⟩ : ∃ (r : Fin 50000) (c : Fin 256), i = ix2 r c := ⟨i 0, i 1, eq_ix2 i⟩
  rw [Read.val_main_v55_apply, Read.val_main_v54_apply, Read.val_main_v52_apply, v49_at, v51_at, v53_at, call1_at]
  rfl

/-! ## Layer 2, entry by entry -/

/-- Layer 2's summed neighbour rows are the specification's neighbour sum of the layer's input. -/
theorem agg2 : Read.val_main_v65 (F := Ideal) x0 x1 x2 x3 x4 x5 x6 x7 = neighbourSum256 (Read.val_main_v55 (F := Ideal) x0 x1 x2 x3 x4 x5 x6 x7) x1 := rfl

/-- Layer 2's divisor is the specification's clamped degree. -/
theorem deg2 : Read.val_main_v71 (F := Ideal) x1 = clampedDegree x1 := rfl

/-- Layer 2's scaled neighbour sum at node r, feature k: the neighbour sum divided by the clamped degree of r. -/
theorem v74_at (r : Fin 50000) (k : Fin 256) :
    Read.val_main_v74 (F := Ideal) x0 x1 x2 x3 x4 x5 x6 x7 (ix2 r k)
      = Ideal.div (neighbourSum256 (Read.val_main_v55 (F := Ideal) x0 x1 x2 x3 x4 x5 x6 x7) x1 (ix2 r k)) (clampedDegree x1 (ix1 r)) := by
  rw [Read.val_main_v74_apply, Read.val_main_v73_apply, Read.val_main_v72_apply, agg2, deg2]
  have e : Read.idx_main_v72 (Read.idx_main_v73 (ix2 r k)) = ix1 r := funext fun a => Fin.ext (by match a with | ⟨0, _⟩ => rfl)
  rw [e]
  rfl

/-- Layer 2's first product at (r, c): the scaled neighbour row of r against column c of the left weights. -/
theorem v75_at (r : Fin 50000) (c : Fin 256) :
    Read.val_main_v75 (F := Ideal) x0 x1 x2 x3 x4 x5 x6 x7 x8 (ix2 r c)
      = ∑ k : Fin 256, Ideal.div (neighbourSum256 (Read.val_main_v55 (F := Ideal) x0 x1 x2 x3 x4 x5 x6 x7) x1 (ix2 r k)) (clampedDegree x1 (ix1 r)) * x8 (ix2 k c) := by
  rw [Read.val_main_v75_apply]
  refine Finset.sum_congr rfl fun k _ => ?_
  have el : Read.lidx_main_v75 (ix2 r c) k = ix2 r k := funext fun a => Fin.ext (by match a with | ⟨0, _⟩ => rfl | ⟨1, _⟩ => rfl)
  have er : Read.ridx_main_v75 (ix2 r c) k = ix2 k c := funext fun a => Fin.ext (by match a with | ⟨0, _⟩ => rfl | ⟨1, _⟩ => rfl)
  rw [el, er, v74_at]

/-- Layer 2's bias, broadcast over the nodes, at (r, c): the bias entry c. -/
theorem v77_at (r : Fin 50000) (c : Fin 256) : Read.val_main_v77 (F := Ideal) x9 (ix2 r c) = x9 (ix1 c) := by
  rw [Read.val_main_v77_apply, Read.val_main_v76_apply]
  have e : Read.idx_main_v76 (Read.idx_main_v77 (ix2 r c)) = ix1 c := funext fun a => Fin.ext (by match a with | ⟨0, _⟩ => rfl)
  rw [e]

/-- Layer 2's second product at (r, c): the node's own row against column c of the right weights. -/
theorem v79_at (r : Fin 50000) (c : Fin 256) :
    Read.val_main_v79 (F := Ideal) x0 x1 x2 x3 x4 x5 x6 x7 x10 (ix2 r c) = ∑ k : Fin 256, (Read.val_main_v55 (F := Ideal) x0 x1 x2 x3 x4 x5 x6 x7) (ix2 r k) * x10 (ix2 k c) := by
  rw [Read.val_main_v79_apply]
  refine Finset.sum_congr rfl fun k _ => ?_
  have el : Read.lidx_main_v79 (ix2 r c) k = ix2 r k := funext fun a => Fin.ext (by match a with | ⟨0, _⟩ => rfl | ⟨1, _⟩ => rfl)
  have er : Read.ridx_main_v79 (ix2 r c) k = ix2 k c := funext fun a => Fin.ext (by match a with | ⟨0, _⟩ => rfl | ⟨1, _⟩ => rfl)
  rw [el, er]

/-- LAYER 2: the reference's last layer is the specification's layer on layer 1's result, with no max. -/
theorem ref_layer2 :
    Read.val_main_v80 (F := Ideal) x0 x1 x2 x3 x4 x5 x6 x7 x8 x9 x10 = layer256 (Read.val_main_v55 (F := Ideal) x0 x1 x2 x3 x4 x5 x6 x7) x1 x8 x10 x9 := by
  funext i
  obtain ⟨r, c, rfl⟩ : ∃ (r : Fin 50000) (c : Fin 256), i = ix2 r c := ⟨i 0, i 1, eq_ix2 i⟩
  rw [Read.val_main_v80_apply, Read.val_main_v78_apply, v75_at, v77_at, v79_at]
  rfl

/-! ## The whole reference -/

open Idealize.ShloMosaic.TcCoe in
/-- THE REFERENCE IS THE NETWORK: the value the reference returns is the specification's three-layer network of the
    argument arrays. -/
theorem ref_network (m : (ℓ : Loc nD τ sig) → Buf (Elt Ideal) ℓ) (c : Dev nD) :
    Cert.ReferenceIdeal.Value.res_main_v80 (F := Ideal) m c
      = network (m ((c.tc : Thread nD τ).loc main_arg0)) (m ((c.tc : Thread nD τ).loc main_arg1))
          (m ((c.tc : Thread nD τ).loc main_arg2)) (m ((c.tc : Thread nD τ).loc main_arg4)) (m ((c.tc : Thread nD τ).loc main_arg3))
          (m ((c.tc : Thread nD τ).loc main_arg5)) (m ((c.tc : Thread nD τ).loc main_arg7)) (m ((c.tc : Thread nD τ).loc main_arg6))
          (m ((c.tc : Thread nD τ).loc main_arg8)) (m ((c.tc : Thread nD τ).loc main_arg10)) (m ((c.tc : Thread nD τ).loc main_arg9)) := by
  refine (Read.val_main_v80_eq (F := Ideal) m c).trans ?_
  rw [ref_layer2, ref_layer1, ref_layer0]
  rfl

end Cert.ReferenceIdeal.Layers

end
-- ==== Proof.FiniteInputs.lean ====
/-
  Finite inputs are real-valued.

  The precondition of the certificate tests, for each float argument array x, that every entry satisfies |x| < +∞
  (absolute value, strict comparison against the +∞ pattern, conjunction over all axes), and joins the ten tests by
  "and".  Over the extended reals |x| is max x (-x), which is +∞ at both infinities and a real at a real; so the test
  yielding 1 says exactly that no entry is +∞ or -∞, that is, the array is real-valued.
-/
import proofs.«145860_j89996744720665_2_alg».proof.Pre_finite_inputs
import proofs.«145860_j89996744720665_2_alg».proof.Proof.LibRealArrays
import Idealize.ShloMosaic.PureOps.Ideal
import Idealize.ShloMosaic.PureOps.Ideal.Laws
import Idealize.ShloMosaic.Lib.ReduceAll
import Idealize.ShloMosaic.Lib.ValueIdx

noncomputable section

namespace Cert.FiniteInputs

open Idealize.ShloMosaic Cert.RealArrays

/-- The f32 pattern 0x7F800000 denotes +∞. -/
theorem inf_pattern : Ideal.ofBits .f32 0x7F800000#32 = (⊤ : EReal) := by
  simp [Ideal.ofBits, Ideal.ieee]

/-- An extended real whose absolute value max x (-x) is strictly below +∞ is a real number. -/
theorem coe_of_abs_lt_top (x : EReal) (h : max x (-x) < ⊤) : x = ((x.toReal : ℝ) : EReal) := by
  induction x using EReal.rec with
  | bot => simp at h
  | coe r => simp
  | top => simp at h

/-- The comparison word of "a < b" is 1 exactly when a < b. -/
theorem cmp_olt_eq_one (a b : EReal) : Ideal.cmp .olt a b = 1#1 ↔ a < b := by
  unfold Ideal.cmp
  by_cases hab : a < b <;> simp [hab]

/-- The shape of rank zero has only one index. -/
instance subsingleton_idx0 : Subsingleton (⟨0, ![]⟩ : Shape).Idx := ⟨fun a b => funext fun d => d.elim0⟩

/-- If the test "all entries satisfy |x| < +∞" (absolute value, strict comparison with the broadcast +∞ pattern,
    conjunction over all axes) yields the one-bit word 1, then the array is real-valued. -/
theorem isReal_of_all_abs_lt_inf {s u : Shape} {axes : List (Fin s.rank)}
    (hb : (⟨0, ![]⟩ : Shape).BroadcastsInDim s (![] : Fin 0 → Fin s.rank))
    (hr : s.ReducesTo axes (⟨0, ![]⟩ : Shape)) (hu : 0 < u.numel)
    (x : FVec Ideal s .f32) (init : IVec u 1) (j : (⟨0, ![]⟩ : Shape).Idx)
    (e : Host.reduce IntOp.andi
          (cmpf .olt (Host.absf x) (broadcastInDim s ![] hb (constant (⟨0, ![]⟩ : Shape) .f32 0x7F800000#32)))
          init hr hu j = 1#1) :
    IsReal x := by
  refine ⟨fun i => (x i).toReal, fun i => ?_⟩
  have hi := Host.reduce_andi_all _ init hr hu j e i
  have hi' : Ideal.cmp .olt (max (x i) (-(x i))) (Ideal.ofBits .f32 0x7F800000#32) = 1#1 := hi
  rw [inf_pattern, cmp_olt_eq_one] at hi'
  exact coe_of_abs_lt_top (x i) hi'

open Cert.Pre_finite_inputs in
/-- If the finiteness test of the eleven arguments (the integer edge array is not tested) yields the one-bit word 1, every
    float argument array is real-valued. -/
theorem real_inputs [Cert.Pre_finite_inputs.Facts]
    (a0 : FVec Ideal S50000x128 .f32) (a1 : IVec S2x600000 32) (a2 : FVec Ideal S128x256 .f32)
    (a3 : FVec Ideal S256 .f32) (a4 : FVec Ideal S128x256 .f32) (a5 : FVec Ideal S256x256 .f32)
    (a6 : FVec Ideal S256 .f32) (a7 : FVec Ideal S256x256 .f32) (a8 : FVec Ideal S256x256 .f32)
    (a9 : FVec Ideal S256 .f32) (a10 : FVec Ideal S256x256 .f32)
    (h : Cert.Pre_finite_inputs.fn (F := Ideal) a0 a1 a2 a3 a4 a5 a6 a7 a8 a9 a10 = (fun _ => 1#1)) :
    IsReal a0 ∧ IsReal a2 ∧ IsReal a3 ∧ IsReal a4 ∧ IsReal a5 ∧ IsReal a6 ∧ IsReal a7 ∧ IsReal a8 ∧ IsReal a9
      ∧ IsReal a10 := by
  have e := congrFun h ValueIdx.ix0
  dsimp only [Cert.Pre_finite_inputs.fn, Cert.Pre_finite_inputs.fn_part1, Cert.Pre_finite_inputs.fn_part2,
    Idealize.ShloMosaic.andi] at e
  simp only [IntOp.andi_eq_one] at e
  obtain ⟨⟨⟨⟨⟨⟨⟨⟨⟨e0, e2⟩, e3⟩, e4⟩, e5⟩, e6⟩, e7⟩, e8⟩, e9⟩, e10⟩ := e
  exact ⟨isReal_of_all_abs_lt_inf _ _ _ a0 _ _ e0, isReal_of_all_abs_lt_inf _ _ _ a2 _ _ e2,
    isReal_of_all_abs_lt_inf _ _ _ a3 _ _ e3, isReal_of_all_abs_lt_inf _ _ _ a4 _ _ e4,
    isReal_of_all_abs_lt_inf _ _ _ a5 _ _ e5, isReal_of_all_abs_lt_inf _ _ _ a6 _ _ e6,
    isReal_of_all_abs_lt_inf _ _ _ a7 _ _ e7, isReal_of_all_abs_lt_inf _ _ _ a8 _ _ e8,
    isReal_of_all_abs_lt_inf _ _ _ a9 _ _ e9, isReal_of_all_abs_lt_inf _ _ _ a10 _ _ e10⟩

end Cert.FiniteInputs

end
-- ==== Proof.lean ====
/-
  The certificate's claim, assembled.

  Three programs are in play: the kernel as printed (on bit patterns), its idealization and the idealized reference (both
  over the extended reals).  Each runs to the end without a fault and leaves its argument arrays as launched.  The
  idealization differs from the printed kernel only at twelve windows that narrow a float array to 16 bits and widen it
  back, which over the extended reals is the identity.  Over the extended reals, where every float argument is finite,
  both the kernel's result — three launches of a layer kernel that scales by the reciprocal clamped degree and takes each
  product in three passes — and the reference's — three layers dividing by the clamped degree with plain products — are
  one function of the arguments: the three-layer mean-aggregation network.
-/
import proofs.«145860_j89996744720665_2_alg».proof.Defs
import proofs.«145860_j89996744720665_2_alg».proof.Proof.Gen.Kernel
import proofs.«145860_j89996744720665_2_alg».proof.Proof.Gen.KernelIdeal
import proofs.«145860_j89996744720665_2_alg».proof.Proof.Gen.ReferenceIdeal
import proofs.«145860_j89996744720665_2_alg».proof.Proof.Gen.Pre_finite_inputs
import proofs.«145860_j89996744720665_2_alg».proof.Proof.PatchedKernelFrame
import proofs.«145860_j89996744720665_2_alg».proof.Proof.KernelValue
import proofs.«145860_j89996744720665_2_alg».proof.Proof.RefLayers
import proofs.«145860_j89996744720665_2_alg».proof.Proof.FiniteInputs
import Idealize.ShloMosaic.PureOps.IdealRules
import Idealize.ShloMosaic.Adequacy
import Idealize.ShloMosaic.Init

noncomputable section

namespace Cert.Proof.Pieces

open Idealize.ShloMosaic Idealize.ShloMosaic.TcCoe Idealize.SL.Sem

/-- The kernel as printed runs to the end without a fault and leaves its argument arrays as launched. -/
theorem frame_k : Cert.frame_Kernel := fun m ρ _ => Cert.Kernel.GenP.frame m ρ

/-- The idealized kernel runs to the end without a fault and leaves its argument arrays as launched. -/
theorem frame_ki : Cert.frame_KernelIdeal := fun m ρ _ => Cert.KernelIdeal.GenP.frame m ρ

/-- The idealized reference runs to the end without a fault and leaves its argument arrays as launched. -/
theorem frame_ri : Cert.frame_ReferenceIdeal := fun m ρ _ =>
  (θ_run Cert.ReferenceIdeal.defs _ _).mono (fun _ h c => (h c).2) (Cert.ReferenceIdeal.Value.run (F := Ideal) m ρ)

/-- Each of the twelve rewritten windows narrows a 32-bit float array to 16 bits and widens it back: over the extended
    reals that is the identity, and on bit patterns it is the rounding through the narrow format. -/
theorem preserves : Cert.preserves_Kernel_KernelIdeal :=
  ⟨IdealRules.truncf_extf.statement Cert.KernelIdeal.S5000x128 .f32 .bf16,
   IdealRules.truncf_extf.statement Cert.KernelIdeal.S128x256 .f32 .bf16,
   IdealRules.truncf_extf.statement Cert.KernelIdeal.S5000x128 .f32 .bf16,
   IdealRules.truncf_extf.statement Cert.KernelIdeal.S128x256 .f32 .bf16,
   IdealRules.truncf_extf.statement Cert.KernelIdeal.S5000x256 .f32 .bf16,
   IdealRules.truncf_extf.statement Cert.KernelIdeal.S256x256 .f32 .bf16,
   IdealRules.truncf_extf.statement Cert.KernelIdeal.S5000x256 .f32 .bf16,
   IdealRules.truncf_extf.statement Cert.KernelIdeal.S256x256 .f32 .bf16,
   IdealRules.truncf_extf.statement Cert.KernelIdeal.S5000x256 .f32 .bf16,
   IdealRules.truncf_extf.statement Cert.KernelIdeal.S256x256 .f32 .bf16,
   IdealRules.truncf_extf.statement Cert.KernelIdeal.S5000x256 .f32 .bf16,
   IdealRules.truncf_extf.statement Cert.KernelIdeal.S256x256 .f32 .bf16⟩

/-- Where the finiteness test of the arguments yields 1, the idealized kernel's result buffer ends at the
    three-layer network of its arguments: every float argument is then real-valued, which is what the kernel's
    three-pass products and reciprocal degree need to agree with the plain products and the quotient. -/
theorem kernel_value (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    Cert.KernelIdeal.GenP.W6 m ρ c (Proc.devRef .tc Cert.KernelIdeal.main_v48)
      = Cert.MeanLayer.network (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg9)) := by
  obtain ⟨h0, h2, h3, h4, h5, h6, h7, h8, h9, h10⟩ := Cert.FiniteInputs.real_inputs _ _ _ _ _ _ _ _ _ _ _ (hpre c)
  exact Cert.KernelIdeal.Layers.result_eq m ρ c h0 h2 h3 h4 h5 h6 h7 h8 h10

/-- Over the extended reals, from memories that agree on the arguments and pass the finiteness test, the kernel and the
    reference both run to the end, leave their arguments as launched, and end with the same result: the three-layer
    network of the arguments. -/
theorem algebraic : Cert.algebraic_KernelIdeal_ReferenceIdeal := by
  intro m ρ m' ρ' hpre hagree
  refine ⟨_, (θ_run Cert.KernelIdeal.defs _ _).mono (fun r h c => ⟨(h c).1.trans (kernel_value m ρ hpre c), (h c).2⟩)
    (Cert.KernelIdeal.Layers.run_result (F := Ideal) m ρ), ?_⟩
  refine (θ_run Cert.ReferenceIdeal.defs _ _).mono (fun r h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Layers.ref_network m' c, a0, a1, a2, a3, a4, a5, a6, a7, a8, a9, a10]

end Cert.Proof.Pieces

namespace Cert.Proof

/-- THE CLAIM: the three programs run and keep their arguments, the idealization only removes roundings, and over the
    extended reals the kernel and the reference compute the same network. -/
theorem claim : Cert.Claim :=
  ⟨Cert.Kernel.Gen.facts, Cert.KernelIdeal.Gen.facts, Cert.ReferenceIdeal.Gen.facts, Cert.Pre_finite_inputs.Gen.facts,
    Pieces.frame_k, Pieces.frame_ki, Pieces.frame_ri, Pieces.preserves, Pieces.algebraic⟩

end Cert.Proof

end
